-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S10000x136 : Shape := ⟨2, ![10000, 136]⟩
abbrev S10000 : Shape := ⟨1, ![10000]⟩
abbrev S10000x1 : Shape := ⟨2, ![10000, 1]⟩
abbrev S10000x8 : Shape := ⟨2, ![10000, 8]⟩
abbrev S400x136 : Shape := ⟨2, ![400, 136]⟩
abbrev S400x1 : Shape := ⟨2, ![400, 1]⟩
abbrev S400 : Shape := ⟨1, ![400]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S10000x136, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S10000 : S10000x128.Reduces [1] S10000
  shapeCasts_S10000_S10000x1 : S10000.ShapeCasts S10000x1
  broadcasts_S10000x1_S10000x128 : S10000x1.Broadcasts S10000x128
  bitsLt_bf16_f32 : FTy.bits .bf16 < FTy.bits .f32
  inb_S10000x136_S10000x128_0_0 : ∀ a, (![0, 0] : Fin 2 → Nat) a + S10000x128.size a ≤ S10000x136.size a
  shapeCasts_S10000x128_S10000x128 : S10000x128.ShapeCasts S10000x128
  packedbf16_S10000x136_S10000x128_0_0 : (Rect.unit (s := S10000x136) ![0, 0] S10000x128.size inb_S10000x136_S10000x128_0_0).PackedRows (EltTy.packing .bf16)
  inb_S10000x136_S10000x8_0_128 : ∀ a, (![0, 128] : Fin 2 → Nat) a + S10000x8.size a ≤ S10000x136.size a
  h_S10000x8 : 0 < S10000x8.numel
  shapeCasts_S10000x8_S10000x8 : S10000x8.ShapeCasts S10000x8
  packedbf16_S10000x136_S10000x8_0_128 : (Rect.unit (s := S10000x136) ![0, 128] S10000x8.size inb_S10000x136_S10000x8_0_128).PackedRows (EltTy.packing .bf16)
  inb_S400x10000_S400x10000_0_0 : ∀ a, (![0, 0] : Fin 2 → Nat) a + S400x10000.size a ≤ S400x10000.size a
  h_S400x10000 : 0 < S400x10000.numel
  inb_S10000x136_S10000x136_0_0 : ∀ a, (![0, 0] : Fin 2 → Nat) a + S10000x136.size a ≤ S10000x136.size a
  h_S10000x136 : 0 < S10000x136.numel
  slices_S400x136_o0_0_S400x128 : S400x136.Slices ![0, 0] S400x128
  slices_S400x136_o0_128_S400x1 : S400x136.Slices ![0, 128] S400x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S400x1_S400x128 : S400x1.Broadcasts S400x128
  broadcasts_S1x128_S400x128 : S1x128.Broadcasts S400x128
  reduces_S400x128_S400 : S400x128.Reduces [1] S400
  shapeCasts_S400_S400x1 : S400.ShapeCasts S400x1
  inb_S400x128_S400x128_0_0 : ∀ a, (![0, 0] : Fin 2 → Nat) a + S400x128.size a ≤ S400x128.size a
  h_S400x128 : 0 < S400x128.numel
  dot_S400x10000_S10000x136_S400x136_1_0_0_1_n_n_wf : DotDims.WF S400x10000 S10000x136 S400x136 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x136_S400x136_1_0_0_1_n_n : DotDims S400x10000 S10000x136 S400x136 where
  lhsContracting := [1]
  rhsContracting := [0]
  lhsNonContracting := [0]
  rhsNonContracting := [1]
  lhsBatch := []
  rhsBatch := []
  wf := dot_S400x10000_S10000x136_S400x136_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩
abbrev S10000 : Shape := ⟨1, ![10000]⟩
abbrev S10000x1 : Shape := ⟨2, ![10000, 1]⟩
abbrev S1x128 : Shape := ⟨2, ![1, 128]⟩

abbrev nBuf : Space → Nat
  | .hbm => 101
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x1, .f32⟩
  | .hbm, ⟨9, _⟩ => ⟨S_, .f32⟩
  | .hbm, ⟨10, _⟩ => ⟨S_, .f32⟩
  | .hbm, ⟨11, _⟩ => ⟨S10000x1, .f32⟩
  | .hbm, ⟨12, _⟩ => ⟨S10000x1, .f32⟩
  | .hbm, ⟨13, _⟩ => ⟨S_, .f32⟩
  | .hbm, ⟨14, _⟩ => ⟨S10000x1, .f32⟩
  | .hbm, ⟨15, _⟩ => ⟨S10000x1, .i1⟩
  | .hbm, ⟨16, _⟩ => ⟨S10000x128, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .f32⟩
  | .hbm, ⟨21, _⟩ => ⟨S10000x128, .i1⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S10000, .f32⟩
  | .hbm, ⟨26, _⟩ => ⟨S10000x1, .f32⟩
  | .hbm, ⟨27, _⟩ => ⟨S10000x1, .f32⟩
  | .hbm, ⟨28, _⟩ => ⟨S_, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x1, .f32⟩
  | .hbm, ⟨39, _⟩ => ⟨S10000x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S10000x1, .f32⟩
  | .hbm, ⟨44, _⟩ => ⟨S10000x1, .f32⟩
  | .hbm, ⟨45, _⟩ => ⟨S_, .f32⟩
  | .hbm, ⟨46, _⟩ => ⟨S10000x1, .f32⟩
  | .hbm, ⟨47, _⟩ => ⟨S10000x1, .f32⟩
  | .hbm, ⟨48, _⟩ => ⟨S10000x1, .f32⟩
  | .hbm, ⟨49, _⟩ => ⟨S10000x1, .f32⟩
  | .hbm, ⟨50, _⟩ => ⟨S10000x1, .f32⟩
  | .hbm, ⟨51, _⟩ => ⟨S10000x1, .f32⟩
  | .hbm, ⟨52, _⟩ => ⟨S_, .f32⟩
  | .hbm, ⟨53, _⟩ => ⟨S10000x1, .f32⟩
  | .hbm, ⟨54, _⟩ => ⟨S10000x1, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S1x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S_, .f32⟩
  | .hbm, ⟨64, _⟩ => ⟨S10000, .f32⟩
  | .hbm, ⟨65, _⟩ => ⟨S10000x1, .f32⟩
  | .hbm, ⟨66, _⟩ => ⟨S10000x1, .f32⟩
  | .hbm, ⟨67, _⟩ => ⟨S_, .f32⟩
  | .hbm, ⟨68, _⟩ => ⟨S_, .f32⟩
  | .hbm, ⟨69, _⟩ => ⟨S10000x1, .f32⟩
  | .hbm, ⟨70, _⟩ => ⟨S10000x1, .f32⟩
  | .hbm, ⟨71, _⟩ => ⟨S_, .f32⟩
  | .hbm, ⟨72, _⟩ => ⟨S10000x1, .f32⟩
  | .hbm, ⟨73, _⟩ => ⟨S10000x1, .f32⟩
  | .hbm, ⟨74, _⟩ => ⟨S10000x1, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x1, .f32⟩
  | .hbm, ⟨79, _⟩ => ⟨S10000x1, .f32⟩
  | .hbm, ⟨80, _⟩ => ⟨S10000x128, .f32⟩
  | .hbm, ⟨81, _⟩ => ⟨S10000x128, .f32⟩
  | .hbm, ⟨82, _⟩ => ⟨S10000x128, .f32⟩
  | .hbm, ⟨83, _⟩ => ⟨S_, .f32⟩
  | .hbm, ⟨84, _⟩ => ⟨S10000, .f32⟩
  | .hbm, ⟨85, _⟩ => ⟨S10000x1, .f32⟩
  | .hbm, ⟨86, _⟩ => ⟨S10000x1, .f32⟩
  | .hbm, ⟨87, _⟩ => ⟨S_, .f32⟩
  | .hbm, ⟨88, _⟩ => ⟨S_, .f32⟩
  | .hbm, ⟨89, _⟩ => ⟨S10000x1, .f32⟩
  | .hbm, ⟨90, _⟩ => ⟨S10000x1, .f32⟩
  | .hbm, ⟨91, _⟩ => ⟨S_, .f32⟩
  | .hbm, ⟨92, _⟩ => ⟨S10000x1, .f32⟩
  | .hbm, ⟨93, _⟩ => ⟨S10000x1, .i1⟩
  | .hbm, ⟨94, _⟩ => ⟨S10000x128, .f32⟩
  | .hbm, ⟨95, _⟩ => ⟨S10000x128, .f32⟩
  | .hbm, ⟨96, _⟩ => ⟨S_, .f32⟩
  | .hbm, ⟨97, _⟩ => ⟨S10000x128, .f32⟩
  | .hbm, ⟨98, _⟩ => ⟨S10000x128, .f32⟩
  | .hbm, ⟨99, _⟩ => ⟨S10000x128, .i1⟩
  | .hbm, ⟨100, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_call2_v0 : Ref sig .tc := ⟨.hbm, 21, rfl⟩
abbrev main_v8 : Ref sig .tc := ⟨.hbm, 22, rfl⟩
abbrev main_call3_v0 : Ref sig .tc := ⟨.hbm, 23, rfl⟩
abbrev main_call3_cst : Ref sig .tc := ⟨.hbm, 24, rfl⟩
abbrev main_call3_v1 : Ref sig .tc := ⟨.hbm, 25, rfl⟩
abbrev main_call3_v2 : Ref sig .tc := ⟨.hbm, 26, rfl⟩
abbrev main_v9 : Ref sig .tc := ⟨.hbm, 27, rfl⟩
abbrev main_cst_2 : Ref sig .tc := ⟨.hbm, 28, rfl⟩
abbrev main_call4_v0 : Ref sig .tc := ⟨.hbm, 29, rfl⟩
abbrev main_call4_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_cst_6 : Ref sig .tc := ⟨.hbm, 41, rfl⟩
abbrev main_call5_v0 : Ref sig .tc := ⟨.hbm, 42, rfl⟩
abbrev main_call5_v1 : Ref sig .tc := ⟨.hbm, 43, rfl⟩
abbrev main_call5_v2 : Ref sig .tc := ⟨.hbm, 44, rfl⟩
abbrev main_call5_v3 : Ref sig .tc := ⟨.hbm, 45, rfl⟩
abbrev main_call5_v4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_7 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_call6_v0 : Ref sig .tc := ⟨.hbm, 62, rfl⟩
abbrev main_call6_cst : Ref sig .tc := ⟨.hbm, 63, rfl⟩
abbrev main_call6_v1 : Ref sig .tc := ⟨.hbm, 64, rfl⟩
abbrev main_call6_v2 : Ref sig .tc := ⟨.hbm, 65, rfl⟩
abbrev main_v31 : Ref sig .tc := ⟨.hbm, 66, rfl⟩
abbrev main_cst_8 : Ref sig .tc := ⟨.hbm, 67, rfl⟩
abbrev main_call7_v0 : Ref sig .tc := ⟨.hbm, 68, rfl⟩
abbrev main_call7_v1 : Ref sig .tc := ⟨.hbm, 69, rfl⟩
abbrev main_v32 : Ref sig .tc := ⟨.hbm, 70, rfl⟩
abbrev main_cst_9 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_10 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_call8_v0 : Ref sig .tc := ⟨.hbm, 82, rfl⟩
abbrev main_call8_cst : Ref sig .tc := ⟨.hbm, 83, rfl⟩
abbrev main_call8_v1 : Ref sig .tc := ⟨.hbm, 84, rfl⟩
abbrev main_call8_v2 : Ref sig .tc := ⟨.hbm, 85, rfl⟩
abbrev main_v42 : Ref sig .tc := ⟨.hbm, 86, rfl⟩
abbrev main_cst_11 : Ref sig .tc := ⟨.hbm, 87, rfl⟩
abbrev main_call9_v0 : Ref sig .tc := ⟨.hbm, 88, rfl⟩
abbrev main_call9_v1 : Ref sig .tc := ⟨.hbm, 89, rfl⟩
abbrev main_v43 : Ref sig .tc := ⟨.hbm, 90, rfl⟩
abbrev main_cst_12 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_13 : Ref sig .tc := ⟨.hbm, 96, rfl⟩
abbrev main_v48 : Ref sig .tc := ⟨.hbm, 97, rfl⟩
abbrev main_v49 : Ref sig .tc := ⟨.hbm, 98, rfl⟩
abbrev main_call10_v0 : Ref sig .tc := ⟨.hbm, 99, rfl⟩
abbrev main_v50 : Ref sig .tc := ⟨.hbm, 100, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelPieces.lean ====
/-
  What the kernel body leaves behind at a grid point, as pure functions of what it read.

  The scratch array has 136 columns. At the first grid point the body fills it: columns 0–127 with the rows of `x`
  scaled into the tangent space (one store), columns 128–135 with ones (a second store). `scratchOf x` is the array
  those two stores leave; read at `(r, c)` it is the scaled row's entry for `c < 128` and the constant one for `c ≥ 128`.
  At every later point the body does not touch the scratch.

  At every point the body stores ONE whole output block: the exponential map's payload of the adjacency block, the scratch,
  the weights and the bias. At the first point the scratch it reads is the one it has just filled; later it is the one
  carried from the point before.
-/
import proofs.«152415_g58454504898751_cont_sun_c4_404_16_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The scratch after the first grid point: ones in columns 128–135 over the scaled rows in columns 0–127. -/
def scratchOf (x0 : Vec F S10000x128 .f32) : Vec F S10000x136 .bf16 :=
  View.canon [⟨Rect.unit (s := S10000x136) ![0, 128] S10000x8.size inb_S10000x136_S10000x8_0_128, k0_pay2⟩,
    ⟨Rect.unit (s := S10000x136) ![0, 0] S10000x128.size inb_S10000x136_S10000x128_0_0, k0_pay1 x0⟩]

/-- The two stores together cover the scratch: a column is below 128 or not. -/
theorem scratch_cover (w1 : S10000x8.Idx → Elt F .bf16) (w2 : S10000x128.Idx → Elt F .bf16) (y : S10000x136.Idx) :
    ∃ p ∈ ([⟨Rect.unit (s := S10000x136) ![0, 128] S10000x8.size inb_S10000x136_S10000x8_0_128, w1⟩,
        ⟨Rect.unit (s := S10000x136) ![0, 0] S10000x128.size inb_S10000x136_S10000x128_0_0, w2⟩] :
        List (View.Piece (Elt F) S10000x136 .bf16)), y ∈ p.1.set := by
  have h0 : (y 0 : Nat) < 10000 := (y 0).isLt
  have h1 : (y 1 : Nat) < 136 := (y 1).isLt
  by_cases h : (y 1 : Nat) < 128
  · refine ⟨_, List.mem_cons_of_mem _ (List.mem_singleton_self _), ?_⟩
    rw [Rect.mem_set_unit]
    intro a
    match a with
    | ⟨0, _⟩ => show 0 ≤ (y 0 : Nat) ∧ (y 0 : Nat) < 0 + 10000; omega
    | ⟨1, _⟩ => show 0 ≤ (y 1 : Nat) ∧ (y 1 : Nat) < 0 + 128; omega
  · refine ⟨_, List.mem_cons_self, ?_⟩
    rw [Rect.mem_set_unit]
    intro a
    match a with
    | ⟨0, _⟩ => show 0 ≤ (y 0 : Nat) ∧ (y 0 : Nat) < 0 + 10000; omega
    | ⟨1, _⟩ => show 128 ≤ (y 1 : Nat) ∧ (y 1 : Nat) < 128 + 8; omega

/-- In a column below 128 the scratch holds the scaled row's entry. -/
theorem scratchOf_left (x0 : Vec F S10000x128 .f32) (r : Fin 10000) (c : Fin 136) (h : c.val < 128) :
    scratchOf x0 (ix2 r c) = k0_pay1 x0 (ix2 r (⟨c.val, h⟩ : Fin 128)) := by
  unfold scratchOf
  rw [View.canon_cons_of_not_mem _ _ (by
    rw [Rect.mem_set_unit]
    intro hall
    have h1 := (hall 1).1
    change 128 ≤ c.val at h1
    omega)]
  have e : (ix2 r c : S10000x136.Idx)
      = (Rect.unit (s := S10000x136) ![0, 0] S10000x128.size inb_S10000x136_S10000x128_0_0).emb (ix2 r (⟨c.val, h⟩ : Fin 128)) := by
    funext a
    apply Fin.ext
    rw [Rect.emb_apply]
    match a with
    | ⟨0, _⟩ => show r.val = 0 + 1 * r.val; omega
    | ⟨1, _⟩ => show c.val = 0 + 1 * c.val; omega
  rw [e, View.canon_cons_emb]

/-- In a column from 128 on the scratch holds the constant the second store wrote. -/
theorem scratchOf_right (x0 : Vec F S10000x128 .f32) (r : Fin 10000) (c : Fin 136) (h : 128 ≤ c.val) :
    scratchOf x0 (ix2 r c) = k0_pay2 (F := F) (ix2 r (⟨c.val - 128, by have := c.isLt; omega⟩ : Fin 8)) := by
  unfold scratchOf
  have e : (ix2 r c : S10000x136.Idx)
      = (Rect.unit (s := S10000x136) ![0, 128] S10000x8.size inb_S10000x136_S10000x8_0_128).emb
          (ix2 r (⟨c.val - 128, by have := c.isLt; omega⟩ : Fin 8)) := by
    funext a
    apply Fin.ext
    rw [Rect.emb_apply]
    match a with
    | ⟨0, _⟩ => show r.val = 0 + 1 * r.val; omega
    | ⟨1, _⟩ => show c.val = 128 + 1 * (c.val - 128); omega
  rw [e, View.canon_cons_emb]

/-- The first point leaves the scratch at `scratchOf` of the array of `x` it read. -/
theorem sout_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x136 .bf16) (harg6 : arg6.IsWhole) (hc0 : cond0_0 i) (x0 : Vec F S10000x128 .f32) (x1 : Vec F S400x10000 .f32) (x2 : Vec F S128x128 .f32) (x3 : Vec F S1x128 .f32) :
    sout0_A_0 c i arg1 harg1 arg2 harg2 arg3 harg3 arg4 harg4 arg5 harg5 arg6 harg6 hc0 x0 x1 x2 x3 = scratchOf x0 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  simp only [View.readAt_eq_ld, harg1.read_unread, View.ld_unit_zero (S := S10000x128) hz]
  rfl

/-- The first point's output block: the payload at the scratch it has just filled. -/
theorem out_A (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x136 .bf16) (harg6 : arg6.IsWhole) (hc0 : cond0_0 i) (x0 : Vec F S10000x128 .f32) (x1 : Vec F S400x10000 .f32) (x2 : Vec F S128x128 .f32) (x3 : Vec F S1x128 .f32) :
    out0_A_4 c i arg1 harg1 arg2 harg2 arg3 harg3 arg4 harg4 arg5 harg5 arg6 harg6 hc0 x0 x1 x2 x3 = k0_pay3 x1 (scratchOf x0) x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  rw [View.readCov_eq_canon_ld _ _ _ (scratch_cover _ _)]
  simp only [View.readAt_eq_ld, harg1.read_unread, harg2.read_unread, harg3.read_unread, harg4.read_unread,
    View.ld_unit_zero (S := S10000x128) hz, View.ld_unit_zero (S := S400x10000) hz, View.ld_unit_zero (S := S128x128) hz,
    View.ld_unit_zero (S := S1x128) hz, View.ld_unit_zero (S := S10000x136) hz]
  rfl

/-- A later point's output block: the payload at the scratch carried from the point before. -/
theorem out_B (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S400x128 .f32) (harg5 : arg5.IsWhole) (arg6 : Memref sig .tc .vmem S10000x136 .bf16) (harg6 : arg6.IsWhole) (hc0 : ¬cond0_0 i) (x0 : Vec F S10000x128 .f32) (x1 : Vec F S400x10000 .f32) (x2 : Vec F S128x128 .f32) (x3 : Vec F S1x128 .f32) (xs0 : Vec F S10000x136 .bf16) :
    out0_B_4 c i arg1 harg1 arg2 harg2 arg3 harg3 arg4 harg4 arg5 harg5 arg6 harg6 hc0 x0 x1 x2 x3 xs0 = k0_pay3 x1 xs0 x2 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz]
  simp only [View.readAt_eq_ld, harg2.read_unread, harg3.read_unread, harg4.read_unread, harg6.read_unread,
    View.ld_unit_zero (S := S400x10000) hz, View.ld_unit_zero (S := S128x128) hz,
    View.ld_unit_zero (S := S1x128) hz, View.ld_unit_zero (S := S10000x136) hz]

end Cert.KernelIdeal.Pieces

end
-- ==== Proof.RowMaps.lean ====
/-
  The two maps between the ball and its tangent space at the origin, row by row, as each program computes them
  on the extended reals. A row is a family `x : ι → EReal` over a finite index type.

  `rnorm x = max (√(∑ x²)) ε` is the row's Euclidean norm floored at `ε`.

  Tangent map (ball → tangent space). The kernel scales the row by `artanh(min(‖x‖, μ)) / ‖x‖` with
  `artanh z = ½ · log((1 + z) / (1 − z))` (`kLog`). The reference first pulls a row of norm above `μ` back onto the sphere of
  radius `μ` (`proj`), then divides by the new norm and multiplies by `½ (log(1 + z) − log(1 − z))` at that norm clipped to
  `[−χ, χ]` (`rLog`).

  Exponential map (tangent space → ball). The kernel scales the row by `min(tanh ‖u‖, μ) / ‖u‖` (`kExp`); the reference forms
  `γ = tanh(‖u‖) · u / ‖u‖` (`gam`) and pulls it back onto the sphere of radius `μ` when its norm exceeds `μ` (`rExp`).

  On rows of real numbers the two tangent maps agree and the two exponential maps agree; those are proved in the
  modules that import this one.
-/
import Idealize.ShloMosaic.PureOps.Ideal

noncomputable section

namespace Cert.RowMaps

open Idealize.ShloMosaic

/-- The floor of a norm (nearest single-precision value to 10⁻¹⁵). -/
abbrev eps : EReal := Ideal.ofBits .f32 0x26901D7D#32
/-- The radius of the ball the points are kept inside (nearest to 1 − 10⁻⁵). -/
abbrev mu : EReal := Ideal.ofBits .f32 0x3F7FFF58#32
abbrev one : EReal := Ideal.ofBits .f32 0x3F800000#32
abbrev half : EReal := Ideal.ofBits .f32 0x3F000000#32
/-- The reference's clip bounds for the argument of the inverse hyperbolic tangent (nearest to ±(1 − 10⁻⁷)). -/
abbrev clo : EReal := Ideal.ofBits .f32 0xBF7FFFFE#32
abbrev chi : EReal := Ideal.ofBits .f32 0x3F7FFFFE#32

variable {ι : Type} [Fintype ι]

/-- The Euclidean norm of a row, floored at `ε`. -/
def rnorm (x : ι → EReal) : EReal := max (Ideal.sqrt (∑ k, x k * x k)) eps

/-- The kernel's tangent map: the row scaled by `artanh(min(‖x‖, μ)) / ‖x‖`. -/
def kLog (x : ι → EReal) (k : ι) : EReal :=
  x k * Ideal.div (half * Ideal.log (Ideal.div (one + min (rnorm x) mu) (one - min (rnorm x) mu))) (rnorm x)

/-- A row of norm above `μ` pulled back onto the sphere of radius `μ`; any other row unchanged. -/
def proj (x : ι → EReal) (k : ι) : EReal :=
  if mu < rnorm x then Ideal.div (x k) (rnorm x) * mu else x k

/-- The norm the reference takes the inverse hyperbolic tangent at: `1 · ‖x‖` clipped to `[−χ, χ]`. -/
def clipped (n : EReal) : EReal := min chi (max clo (one * n))

/-- The reference's tangent map. -/
def rLog (x : ι → EReal) (k : ι) : EReal :=
  Ideal.div (Ideal.div (proj x k) (rnorm (proj x))) one
    * (half * (Ideal.log1p (clipped (rnorm (proj x))) - Ideal.log1p (-clipped (rnorm (proj x)))))

/-- The kernel's exponential map: the row scaled by `min(tanh ‖u‖, μ) / ‖u‖`. -/
def kExp (u : ι → EReal) (j : ι) : EReal :=
  u j * Ideal.div (min (Ideal.tanh (rnorm u)) mu) (rnorm u)

/-- `γ = tanh(‖u‖) · u / ‖u‖`, as the reference spells it (with its factors `1 ·`). -/
def gam (u : ι → EReal) (j : ι) : EReal :=
  Ideal.div (Ideal.tanh (one * rnorm u) * u j) (one * rnorm u)

/-- The reference's exponential map: `γ` pulled back into the ball. -/
def rExp (u : ι → EReal) (j : ι) : EReal := proj (gam u) j

end Cert.RowMaps

end
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.KernelPayload.lean ====
/-
  The kernel body's two computed payloads, read at an index over the extended reals.

  First point, scratch columns 0–127: entry `(r, c)` is the kernel's tangent map of row `r` of `x` at `c` — the row scaled by
  `artanh(min(‖x_r‖, μ)) / ‖x_r‖` (the change of format to the scratch's is the identity here).

  Every point, the output block: with `A` the adjacency block, `S` the scratch, `W` the weights and `B` the bias row, the body
  forms `Y = A · S` (136 columns), takes `Y[:, 0:128] · W + Y[:, 128] · B` — `accOf`, entry `(p, j)`:
  `∑_c (∑_k A(p,k) S(k,c)) W(c,j) + (∑_k A(p,k) S(k,128)) B(0,j)` — and applies its exponential map to each row.
-/
import proofs.«152415_g58454504898751_cont_sun_c4_404_16_alg».proof.Proof.Gen.KernelIdeal.Skeleton
import proofs.«152415_g58454504898751_cont_sun_c4_404_16_alg».proof.Proof.RowMaps
import proofs.«152415_g58454504898751_cont_sun_c4_404_16_alg».proof.Proof.LibColumn
import proofs.«152415_g58454504898751_cont_sun_c4_404_16_alg».proof.Proof.LibRowSum
import proofs.«152415_g58454504898751_cont_sun_c4_404_16_alg».proof.Proof.LibDot
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen Cert.RowMaps

/-- The Euclidean norm of each row of an `[a, 128]` array, floored at `ε`, kept as a column `[a, 1]`: the body's
    `max(√(∑ y²), ε)` read at row `r`. -/
theorem norm_col {a : ℕ} (y : FVec Ideal ⟨2, ![a, 128]⟩ .f32) (hr : (⟨2, ![a, 128]⟩ : Shape).Reduces [1] ⟨1, ![a]⟩)
    (hφ : FKind.Formats .f32) (hacc : (0x00000000#32 : BitVec 32) = FKind.add.neutral .f32 hφ)
    (hsc : (⟨1, ![a]⟩ : Shape).ShapeCasts ⟨2, ![a, 1]⟩) (r : Fin a) (u : Fin 1) :
    maximumf (sqrt (shapeCast ⟨2, ![a, 1]⟩ (multiReduction .add [1] ⟨1, ![a]⟩ (mulf y y) 0x00000000#32 hr hφ hacc) hsc))
        (broadcast ⟨2, ![a, 1]⟩ (Scalar.ofBits .f32 0x26901D7D#32)) (ix2 r u)
      = rnorm (fun k : Fin 128 => y (ix2 r k)) := by
  rw [maximumf_apply, broadcast_apply]
  show max (Ideal.sqrt (shapeCast ⟨2, ![a, 1]⟩ _ hsc (ix2 r u))) _ = _
  rw [shapeCast_a_a1_apply, multiReduction_add_rows_apply]
  rfl

/-- The tangent map's scale as the body spells it from a column `N` of floored norms. -/
theorem log_scale_col (N : FVec Ideal S10000x1 .f32) (j : S10000x1.Idx) :
    divf (mulf (broadcast S10000x1 (Scalar.ofBits .f32 0x3F000000#32))
        (log (divf (addf (broadcast S10000x1 (Scalar.ofBits .f32 0x3F800000#32)) (minimumf N (broadcast S10000x1 (Scalar.ofBits .f32 0x3F7FFF58#32))))
          (subf (broadcast S10000x1 (Scalar.ofBits .f32 0x3F800000#32)) (minimumf N (broadcast S10000x1 (Scalar.ofBits .f32 0x3F7FFF58#32))))))) N j
      = Ideal.div (half * Ideal.log (Ideal.div (one + min (N j) mu) (one - min (N j) mu))) (N j) := rfl

/-- The exponential map's scale as the body spells it from a column `N` of floored norms. -/
theorem exp_scale_col (N : FVec Ideal S400x1 .f32) (j : S400x1.Idx) :
    divf (minimumf (tanh N) (broadcast S400x1 (Scalar.ofBits .f32 0x3F7FFF58#32))) N j
      = Ideal.div (min (Ideal.tanh (N j)) mu) (N j) := rfl

/-- Scratch columns 0–127 at the first point: the kernel's tangent map of row `r`. -/
theorem pay1_apply (x0 : Vec Ideal S10000x128 .f32) (r : Fin 10000) (c : Fin 128) :
    k0_pay1 x0 (ix2 r c) = kLog (fun k : Fin 128 => x0 (ix2 r k)) c := by
  unfold k0_pay1
  rw [shapeCast_self]
  show x0 (ix2 r c) * broadcastTo S10000x128 _ broadcasts_S10000x1_S10000x128 (ix2 r c) = _
  rw [broadcastTo_a1_ab_apply, log_scale_col,
    norm_col x0 reduces_S10000x128_S10000 (.inl rfl) rfl shapeCasts_S10000_S10000x1 r (0 : Fin 1)]
  rfl

/-- Scratch columns 128–135 at the first point: the constant one (in the scratch's format). -/
theorem pay2_apply (i : S10000x8.Idx) : k0_pay2 (F := Ideal) i = Ideal.ofBits .bf16 0x3F80#16 := by
  unfold k0_pay2
  rw [shapeCast_self]
  rfl

abbrev d1 := dot_S400x10000_S10000x136_S400x136_1_0_0_1_n_n
abbrev d2 := dot_S400x128_S128x128_S400x128_1_0_0_1_n_n

/-- `A · S`: rows of the left factor against columns of the right one. -/
theorem plain1 : Cert.LibDot.Plain d1 where
  hrank := rfl
  hs := rfl
  hl0 := fun j k => by
    unfold DotDims.lhsIdx
    rw [dif_neg (show ¬(0 : Fin S400x10000.rank) ∈ d1.lhsBatch by decide), dif_pos (show (0 : Fin S400x10000.rank) ∈ d1.lhsNonContracting by decide)]
    rfl
  hl1 := fun j k => d1.lhsIdx_val_of_single rfl j k
  hr0 := fun j k => d1.rhsIdx_val_of_single rfl j k
  hr1 := fun j k => by
    unfold DotDims.rhsIdx
    rw [dif_neg (show ¬(1 : Fin S10000x136.rank) ∈ d1.rhsBatch by decide), dif_pos (show (1 : Fin S10000x136.rank) ∈ d1.rhsNonContracting by decide)]
    rfl

/-- `Y · W`, likewise. -/
theorem plain2 : Cert.LibDot.Plain d2 where
  hrank := rfl
  hs := rfl
  hl0 := fun j k => by
    unfold DotDims.lhsIdx
    rw [dif_neg (show ¬(0 : Fin S400x128.rank) ∈ d2.lhsBatch by decide), dif_pos (show (0 : Fin S400x128.rank) ∈ d2.lhsNonContracting by decide)]
    rfl
  hl1 := fun j k => d2.lhsIdx_val_of_single rfl j k
  hr0 := fun j k => d2.rhsIdx_val_of_single rfl j k
  hr1 := fun j k => by
    unfold DotDims.rhsIdx
    rw [dif_neg (show ¬(1 : Fin S128x128.rank) ∈ d2.rhsBatch by decide), dif_pos (show (1 : Fin S128x128.rank) ∈ d2.rhsNonContracting by decide)]
    rfl

/-- `Y = A · S`, 136 columns. -/
def ySum (A : Vec Ideal S400x10000 .f32) (S : Vec Ideal S10000x136 .bf16) : FVec Ideal S400x136 .f32 :=
  matmul (φ₁ := .bf16) (φ₂ := .bf16) d1 none (truncf .bf16 A bitsLt_bf16_f32) S (constant S400x136 .f32 0x00000000#32)

theorem ySum_apply (A : Vec Ideal S400x10000 .f32) (S : Vec Ideal S10000x136 .bf16) (p : Fin 400) (c : Fin 136) :
    ySum A S (ix2 p c) = ∑ k : Fin 10000, A (ix2 p k) * S (ix2 k c) := by
  unfold ySum
  rw [Cert.LibDot.matmul_ix2 plain1]
  rfl

/-- The rows the exponential map is applied to: `Y[:, 0:128] · W + Y[:, 128] · B`. -/
def accOf (A : Vec Ideal S400x10000 .f32) (S : Vec Ideal S10000x136 .bf16) (W : Vec Ideal S128x128 .f32) (B : Vec Ideal S1x128 .f32) :
    FVec Ideal S400x128 .f32 :=
  addf (matmul (φ₁ := .f32) (φ₂ := .f32) d2 none (extractStridedSlice S400x128 ![0, 0] (ySum A S) slices_S400x136_o0_0_S400x128) W (constant S400x128 .f32 0x00000000#32))
    (mulf (broadcastTo S400x128 (extractStridedSlice S400x1 ![0, 128] (ySum A S) slices_S400x136_o0_128_S400x1) broadcasts_S400x1_S400x128)
      (broadcastTo S400x128 (shapeCast S1x128 B shapeCasts_S1x128_S1x128) broadcasts_S1x128_S400x128))

theorem accOf_apply (A : Vec Ideal S400x10000 .f32) (S : Vec Ideal S10000x136 .bf16) (W : Vec Ideal S128x128 .f32) (B : Vec Ideal S1x128 .f32)
    (p : Fin 400) (j : Fin 128) :
    accOf A S W B (ix2 p j)
      = (∑ c : Fin 128, (∑ k : Fin 10000, A (ix2 p k) * S (ix2 k (⟨c.val, by have := c.isLt; omega⟩ : Fin 136))) * W (ix2 c j))
        + (∑ k : Fin 10000, A (ix2 p k) * S (ix2 k (⟨128, by decide⟩ : Fin 136))) * B (ix2 (0 : Fin 1) j) := by
  unfold accOf
  rw [addf_apply, mulf_apply, Cert.LibDot.matmul_ix2 plain2, broadcastTo_a1_ab_apply, broadcastTo_1b_ab_apply, shapeCast_self,
    slice2_axis1_apply 128 _ _ p (0 : Fin 1) (⟨128, by decide⟩ : Fin 136) rfl, ySum_apply]
  refine congrArg (· + _) (Finset.sum_congr rfl fun c _ => ?_)
  rw [slice2_axis1_apply 0 _ _ p c (⟨c.val, by have := c.isLt; omega⟩ : Fin 136) (Nat.zero_add _).symm, ySum_apply]

/-- The output block: the kernel's exponential map of each row of `accOf`. -/
theorem pay3_apply (A : Vec Ideal S400x10000 .f32) (S : Vec Ideal S10000x136 .bf16) (W : Vec Ideal S128x128 .f32) (B : Vec Ideal S1x128 .f32)
    (p : Fin 400) (j : Fin 128) :
    k0_pay3 A S W B (ix2 p j) = kExp (fun j' : Fin 128 => accOf A S W B (ix2 p j')) j := by
  unfold k0_pay3
  show accOf A S W B (ix2 p j) * broadcastTo S400x128 _ broadcasts_S400x1_S400x128 (ix2 p j) = _
  rw [broadcastTo_a1_ab_apply, exp_scale_col]
  have hn := norm_col (accOf A S W B) reduces_S400x128_S400 (.inl rfl) rfl shapeCasts_S400_S400x1 p (0 : Fin 1)
  exact congrArg (fun n => accOf A S W B (ix2 p j) * Ideal.div (min (Ideal.tanh n) mu) n) hn

end Cert.KernelIdeal.Payload

end
-- ==== Proof.Spec.lean ====
/-
  The layer's result as ONE function of the four argument arrays, index by index, in the two arrangements the programs
  compute it in. `X` is the node features [10000, 128], `Adj` the adjacency [10000, 10000], `Wt` the weights [128, 128],
  `b` the bias (one entry per output column).

  Kernel's arrangement. `tangent X k c` is row `k` of `X` under the kernel's tangent map, at `c`. The aggregated row `i` is
      accK i j = ∑_c (∑_k Adj(i,k) · tangent(k,c)) · Wt(c,j) + (∑_k Adj(i,k) · 1) · b_j
  (the adjacency is multiplied first; its row sums come from a column of ones, whose entry is the constant `1` in the
  scratch's format), and the result is the kernel's exponential map of that row: `G`.

  Reference's arrangement. The features are mapped by the reference's tangent map, the linear layer is applied first,
      accR i j = ∑_k Adj(i,k) · (∑_c rLog(X_k)(c) · Wt(c,j) + b_j),
  and the result is the reference's exponential map of that row: `GR`.

  On arrays of real numbers `GR = G` (Proof/Bridge.lean): the two tangent maps agree on real rows, a matrix product
  distributes over the affine map when every entry is real, and the two exponential maps agree on real rows.
-/
import proofs.«152415_g58454504898751_cont_sun_c4_404_16_alg».proof.Proof.RowMaps
import Idealize.ShloMosaic.Lib.ValueIdx

noncomputable section

namespace Cert.Spec

open Idealize.ShloMosaic Idealize.ShloMosaic.ValueIdx Cert.RowMaps

/-- Row `k` of the features under the kernel's tangent map, at column `c`. -/
def tangent (X : (⟨2, ![10000, 128]⟩ : Shape).Idx → EReal) (k : Fin 10000) (c : Fin 128) : EReal :=
  kLog (fun k' : Fin 128 => X (ix2 k k')) c

/-- The aggregated rows, adjacency first (the kernel's arrangement). -/
def accK (X : (⟨2, ![10000, 128]⟩ : Shape).Idx → EReal) (Adj : (⟨2, ![10000, 10000]⟩ : Shape).Idx → EReal)
    (Wt : (⟨2, ![128, 128]⟩ : Shape).Idx → EReal) (b : Fin 128 → EReal) (i : Fin 10000) (j : Fin 128) : EReal :=
  (∑ c : Fin 128, (∑ k : Fin 10000, Adj (ix2 i k) * tangent X k c) * Wt (ix2 c j))
    + (∑ k : Fin 10000, Adj (ix2 i k) * Ideal.ofBits .bf16 0x3F80#16) * b j

/-- The layer's result, kernel's arrangement. -/
def G (X : (⟨2, ![10000, 128]⟩ : Shape).Idx → EReal) (Adj : (⟨2, ![10000, 10000]⟩ : Shape).Idx → EReal)
    (Wt : (⟨2, ![128, 128]⟩ : Shape).Idx → EReal) (b : Fin 128 → EReal) : (⟨2, ![10000, 128]⟩ : Shape).Idx → EReal :=
  fun y => kExp (fun j' : Fin 128 => accK X Adj Wt b (y 0) j') (y 1)

/-- The aggregated rows, linear layer first (the reference's arrangement). -/
def accR (X : (⟨2, ![10000, 128]⟩ : Shape).Idx → EReal) (Adj : (⟨2, ![10000, 10000]⟩ : Shape).Idx → EReal)
    (Wt : (⟨2, ![128, 128]⟩ : Shape).Idx → EReal) (b : Fin 128 → EReal) (i : Fin 10000) (j : Fin 128) : EReal :=
  ∑ k : Fin 10000, Adj (ix2 i k) * ((∑ c : Fin 128, rLog (fun k' : Fin 128 => X (ix2 k k')) c * Wt (ix2 c j)) + b j)

/-- The layer's result, reference's arrangement. -/
def GR (X : (⟨2, ![10000, 128]⟩ : Shape).Idx → EReal) (Adj : (⟨2, ![10000, 10000]⟩ : Shape).Idx → EReal)
    (Wt : (⟨2, ![128, 128]⟩ : Shape).Idx → EReal) (b : Fin 128 → EReal) : (⟨2, ![10000, 128]⟩ : Shape).Idx → EReal :=
  fun y => rExp (fun j' : Fin 128 => accR X Adj Wt b (y 0) j') (y 1)

end Cert.Spec

end
-- ==== Proof.KernelValue.lean ====
/-
  The kernel's result array after the run, as one function of the argument arrays.

  The grid has 25 points; point `t` handles rows `400·t … 400·t + 399` of the adjacency and of the output. The scratch is
  filled at point 0 from the whole array of `x` and never written again, so after EVERY point it holds `scratchOf x`
  (induction on the point). Hence at every point the block written back is the exponential-map payload of the adjacency
  block, that one scratch, the weights and the bias row; read at a block index `(p, j)` it is the specification `G` at
  row `400·t + p`, column `j` (the block's rows are the array's rows `400·t + p`; the scratch's columns below 128 are the
  tangent features, its column 128 is the constant one). The 25 blocks tile the output array (row `r` is in block `r / 400`),
  so the array ends holding `G`. The bias reaches the kernel as a [1, 128] array: the host's reshape of the [128] argument.
-/
import proofs.«152415_g58454504898751_cont_sun_c4_404_16_alg».proof.Proof.Gen.KernelIdeal.Value
import proofs.«152415_g58454504898751_cont_sun_c4_404_16_alg».proof.Proof.KernelPieces
import proofs.«152415_g58454504898751_cont_sun_c4_404_16_alg».proof.Proof.KernelPayload
import proofs.«152415_g58454504898751_cont_sun_c4_404_16_alg».proof.Proof.Spec
import Idealize.ShloMosaic.Lib.Pipeline.Value
import Idealize.ShloMosaic.Lib.StableHlo.Run
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces Cert.KernelIdeal.Payload Cert.Spec Cert.RowMaps

variable (m : (ℓ : Loc nD τ sig) → Buf (Elt Ideal) ℓ) (ρ : Dev nD → PrngReg)

/-- The first grid point. -/
abbrev t0 : Fin cfg0.N := ⟨0, by rw [show cfg0.N = 25 from N_0]; decide⟩

/-- The scratch after every point is the one the first point filled. -/
theorem scratch_eq (c : Dev nD) : ∀ (n : ℕ) (h : n < cfg0.N), (outsAt0 m c n h).2 = scratchOf (iblk m c 0 t0)
  | 0, h => by
    rw [outsAt0_A m c ⟨0, h⟩ rfl]
    dsimp only
    rw [sout_A]
  | n + 1, h => by
    have hN : cfg0.N = 25 := N_0
    have hB : ¬(⟨n + 1, h⟩ : Fin cfg0.N).val % 25 = 0 := by dsimp only; omega
    rw [outsAt0_B m c ⟨n + 1, h⟩ hB]
    show (outsAt0 m c n _).2 = _
    exact scratch_eq c n _

/-- The block every point leaves in the output's staging buffer. -/
theorem out_eq (c : Dev nD) (t : Fin cfg0.N) :
    (outsAt0 m c t.val t.isLt).1 = k0_pay3 (iblk m c 1 t) (scratchOf (iblk m c 0 t0)) (iblk m c 2 t) (iblk m c 3 t) := by
  have hN : cfg0.N = 25 := N_0
  by_cases h0 : t.val % 25 = 0
  · have ht : t = t0 := Fin.ext (by have := t.isLt; show t.val = 0; omega)
    subst ht
    rw [outsAt0_A m c t0 h0]
    dsimp only
    rw [out_A]
  · rw [outsAt0_B m c t h0]
    dsimp only
    rw [out_B, scratch_eq]

/-- The block's value at `(p, j)` from what the body read, when the adjacency block's row `p` is the array's row `i`. -/
theorem block_value (X0 : Vec Ideal S10000x128 .f32) (A : Vec Ideal S400x10000 .f32) (W : Vec Ideal S128x128 .f32) (B : Vec Ideal S1x128 .f32)
    (X : (⟨2, ![10000, 128]⟩ : Shape).Idx → EReal) (Adj : (⟨2, ![10000, 10000]⟩ : Shape).Idx → EReal)
    (Wt : (⟨2, ![128, 128]⟩ : Shape).Idx → EReal) (b : Fin 128 → EReal) (i : Fin 10000) (p : Fin 400) (j : Fin 128)
    (hX : ∀ k k', X0 (ix2 k k') = X (ix2 k k')) (hA : ∀ k, A (ix2 p k) = Adj (ix2 i k))
    (hW : ∀ c j', W (ix2 c j') = Wt (ix2 c j')) (hB : ∀ j', B (ix2 (0 : Fin 1) j') = b j') :
    k0_pay3 A (scratchOf X0) W B (ix2 p j) = kExp (fun j' : Fin 128 => accK X Adj Wt b i j') j := by
  rw [pay3_apply]
  refine congrArg (fun f => kExp f j) (funext fun j' => ?_)
  rw [accOf_apply]
  unfold accK
  rw [hB]
  refine congr (congrArg HAdd.hAdd (Finset.sum_congr rfl fun c _ => ?_)) (congrArg (· * b j') (Finset.sum_congr rfl fun k _ => ?_))
  · rw [hW]
    refine congrArg (· * Wt (ix2 c j')) (Finset.sum_congr rfl fun k _ => ?_)
    rw [hA, scratchOf_left X0 k (⟨c.val, by have := c.isLt; omega⟩ : Fin 136) c.isLt, pay1_apply]
    have e : (fun k' : Fin 128 => X0 (ix2 k k')) = fun k' : Fin 128 => X (ix2 k k') := funext (hX k)
    rw [e]
    rfl
  · rw [hA, scratchOf_right X0 k (⟨128, by decide⟩ : Fin 136) (le_refl _), pay2_apply]

/-- Where each window's block sits at point `t`, decided over the 25 points: the adjacency's and the output's blocks move
    down with `t`; the other windows' blocks are their whole arrays. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The function the output array ends holding, of the arrays as the region finds them. -/
abbrev GV (c : Dev nD) : (⟨2, ![10000, 128]⟩ : Shape).Idx → EReal :=
  G (V m c main_arg0) (V m c main_arg1) (V m c main_arg2) (fun j : Fin 128 => V m c main_v0 (ix2 (0 : Fin 1) j))

/-- What point `t` writes back is block `t` of that function. -/
theorem flushed_eq (c : Dev nD) (t : Fin cfg0.N) :
    (dats m 0 c).flushed 4 t = ((cfg0.win 4).blk t).view.read (Elt Ideal) (GV m c) := by
  rw [Cert.KernelIdeal.Value.flushed4, out_eq]
  have hN : cfg0.N = 25 := N_0
  have ht : t.val < 25 := lt_of_lt_of_eq t.isLt hN
  obtain ⟨f00, f01, f10, f11, f20, f21, f30, f31, f40, f41⟩ := idx_facts t
  obtain ⟨g00, g01, -, -, -, -, -, -, -, -⟩ := idx_facts t0
  funext y
  obtain ⟨p, q, rfl⟩ : ∃ (p : Fin 400) (q : Fin 128), y = ix2 p q := ⟨y 0, y 1, eq_ix2 y⟩
  show k0_pay3 (iblk m c 1 t) (scratchOf (iblk m c 0 t0)) (iblk m c 2 t) (iblk m c 3 t) (ix2 p q)
    = GV m c (((cfg0.win 4).blk t).view.emb (ix2 p q))
  have hp := p.isLt
  have hq := q.isLt
  have hemb : ((cfg0.win 4).blk t).view.emb (ix2 p q) = ix2 (⟨t.val * 400 + p.val, by omega⟩ : Fin 10000) q := by
    funext a; apply Fin.ext
    match a with
    | ⟨0, _⟩ => show win0_4.index t (0 : Fin 2) * 400 + 1 * p.val = t.val * 400 + p.val; omega
    | ⟨1, _⟩ => show win0_4.index t (1 : Fin 2) * 128 + 1 * q.val = q.val; omega
  rw [hemb]
  show _ = kExp (fun j' : Fin 128 => accK (V m c main_arg0) (V m c main_arg1) (V m c main_arg2)
    (fun j : Fin 128 => V m c main_v0 (ix2 (0 : Fin 1) j)) (⟨t.val * 400 + p.val, by omega⟩ : Fin 10000) j') q
  refine block_value (iblk m c 0 t0) (iblk m c 1 t) (iblk m c 2 t) (iblk m c 3 t) (V m c main_arg0) (V m c main_arg1) (V m c main_arg2)
    (fun j : Fin 128 => V m c main_v0 (ix2 (0 : Fin 1) j)) (⟨t.val * 400 + p.val, by omega⟩ : Fin 10000) p q ?_ ?_ ?_ ?_
  · intro k k'
    show V m c main_arg0 (((cfg0.win 0).blk t0).view.emb (ix2 k k')) = V m c main_arg0 (ix2 k k')
    refine congrArg (V m c main_arg0) (funext fun a => Fin.ext ?_)
    have hk := k.isLt
    have hk' := k'.isLt
    match a with
    | ⟨0, _⟩ => show win0_0.index t0 (0 : Fin 2) * 10000 + 1 * k.val = k.val; omega
    | ⟨1, _⟩ => show win0_0.index t0 (1 : Fin 2) * 128 + 1 * k'.val = k'.val; omega
  · intro k
    show V m c main_arg1 (((cfg0.win 1).blk t).view.emb (ix2 p k)) = V m c main_arg1 (ix2 (⟨t.val * 400 + p.val, by omega⟩ : Fin 10000) k)
    refine congrArg (V m c main_arg1) (funext fun a => Fin.ext ?_)
    have hk := k.isLt
    match a with
    | ⟨0, _⟩ => show win0_1.index t (0 : Fin 2) * 400 + 1 * p.val = t.val * 400 + p.val; omega
    | ⟨1, _⟩ => show win0_1.index t (1 : Fin 2) * 10000 + 1 * k.val = k.val; omega
  · intro k j'
    show V m c main_arg2 (((cfg0.win 2).blk t).view.emb (ix2 k j')) = V m c main_arg2 (ix2 k j')
    refine congrArg (V m c main_arg2) (funext fun a => Fin.ext ?_)
    have hk := k.isLt
    have hj' := j'.isLt
    match a with
    | ⟨0, _⟩ => show win0_2.index t (0 : Fin 2) * 128 + 1 * k.val = k.val; omega
    | ⟨1, _⟩ => show win0_2.index t (1 : Fin 2) * 128 + 1 * j'.val = j'.val; omega
  · intro j'
    show V m c main_v0 (((cfg0.win 3).blk t).view.emb (ix2 (0 : Fin 1) j')) = V m c main_v0 (ix2 (0 : Fin 1) j')
    refine congrArg (V m c main_v0) (funext fun a => Fin.ext ?_)
    have hj' := j'.isLt
    match a with
    | ⟨0, _⟩ => show win0_3.index t (0 : Fin 2) * 1 + 1 * 0 = 0; omega
    | ⟨1, _⟩ => show win0_3.index t (1 : Fin 2) * 128 + 1 * j'.val = j'.val; omega

/-- An index of the output array is in point `t`'s block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- The 25 blocks tile the output array: row `r` is in block `r / 400`. -/
theorem cover (i : S10000x128.Idx) : ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  refine ⟨⟨(i 0).val / 400, by rw [hN]; omega⟩, flush0_4 _, ?_⟩
  obtain ⟨-, -, -, -, -, -, -, -, f40, f41⟩ := idx_facts ⟨(i 0).val / 400, by rw [hN]; omega⟩
  rw [mem_blk]
  intro a
  match a with
  | ⟨0, _⟩ =>
    show win0_4.index _ (0 : Fin 2) * 400 ≤ (i 0).val ∧ (i 0).val < win0_4.index _ (0 : Fin 2) * 400 + 400
    rw [f40]; dsimp only; omega
  | ⟨1, _⟩ =>
    show win0_4.index _ (1 : Fin 2) * 128 ≤ (i 1).val ∧ (i 1).val < win0_4.index _ (1 : Fin 2) * 128 + 128
    rw [f41]; omega

/-- The output array after the run. -/
theorem final (c : Dev nD) : (dats m 0 c).arrAt 4 cfg0.N = GV m c :=
  (dats m 0 c).arrAt_eq_of_cover 4 (GV m c) (fun t _ => flushed_eq m c t) (cover)

/-- The bias as the kernel finds it: the host's reshape of the [128] argument to [1, 128]. -/
theorem bias_row (c : Dev nD) (j : Fin 128) :
    V m c main_v0 (ix2 (0 : Fin 1) j) = m ((c : Thread nD τ).loc main_arg3) (ix1 j) := by
  have e : (V m c main_v0 : S1x128.Idx → EReal) = shapeCast S1x128 (m ((c : Thread nD τ).loc main_arg3)) shapeCasts_S128_S1x128 := by
    dsimp only [Gen.V, Gen.hostOps0]; after_results; rfl
  rw [e, shapeCast_a_1a_apply]

/-- The run, read: the result array at `G` of the argument arrays, the arguments unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2))
            (fun j : Fin 128 => m ((c : Thread nD τ).loc main_arg3) (ix1 j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show G (V m c main_arg0) (V m c main_arg1) (V m c main_arg2) (fun j : Fin 128 => V m c main_v0 (ix2 (0 : Fin 1) j)) = _
      rw [V_main_arg0, V_main_arg1, V_main_arg2, show (fun j : Fin 128 => V m c main_v0 (ix2 (0 : Fin 1) j))
        = fun j : Fin 128 => m ((c : Thread nD τ).loc main_arg3) (ix1 j) from funext (bias_row m c)])), (h c).2⟩)
    (Cert.KernelIdeal.Value.run_blocks m ρ)

end Cert.KernelIdeal.KValue

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.RefStages.lean ====
/-
  The reference program's run, read one host operation at a time.

  The reference's @main is a straight line of 97 host operations; each writes one buffer of its own (every tensor value
  has its buffer), and every operand of an operation is either an argument of @main, which no operation writes, or the
  result of an earlier operation.  So after the whole line has run, the result buffer of the k-th operation holds the
  operation's function of what its operand buffers hold after the whole line: the operands were written earlier and are
  not written again, the result is written by no later operation.

  A STAGE is the value an operation writes, as a function of the arguments of @main it depends on, defined from the
  stages of its operands (so a shared intermediate value appears once).  This module proves, operation by operation in
  program order, that the run leaves each buffer at its stage; the last equation is the result's.
-/
import proofs.«152415_g58454504898751_cont_sun_c4_404_16_alg».proof.Proof.RefRun
import proofs.«152415_g58454504898751_cont_sun_c4_404_16_alg».proof.Proof.RefRead
import proofs.«152415_g58454504898751_cont_sun_c4_404_16_alg».proof.Proof.LibLineOfOps

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.RunP (ops)

variable {F : FTy → Type} [FloatOps F]

/-- The buffer each operation writes, in program order: 97 distinct buffers, none of them an argument of @main. -/
abbrev wr : List (Ref sig .tc) :=
  [ main_call0_v0, main_call0_cst, main_call0_v1, main_call0_v2, main_v0, main_cst, main_call1_v0, main_call1_v1, main_v1,
    main_cst_0, main_v2, main_v3, main_v4, main_v5, main_cst_1, main_v6, main_v7, main_call2_v0, main_v8,
    main_call3_v0, main_call3_cst, main_call3_v1, main_call3_v2, main_v9, main_cst_2, main_call4_v0, main_call4_v1, main_v10,
    main_v11, main_v12, main_cst_3, main_v13, main_v14, main_cst_4, main_v15, main_v16, main_cst_5, main_cst_6,
    main_call5_v0, main_call5_v1, main_call5_v2, main_call5_v3, main_call5_v4, main_v17, main_v18, main_v19, main_v20, main_v21,
    main_cst_7, main_v22, main_v23, main_v24, main_v25, main_v26, main_v27, main_v28, main_v29, main_v30,
    main_call6_v0, main_call6_cst, main_call6_v1, main_call6_v2, main_v31, main_cst_8, main_call7_v0, main_call7_v1, main_v32,
    main_cst_9, main_v33, main_v34, main_v35, main_v36, main_v37, main_cst_10, main_v38, main_v39, main_v40, main_v41,
    main_call8_v0, main_call8_cst, main_call8_v1, main_call8_v2, main_v42, main_cst_11, main_call9_v0, main_call9_v1, main_v43,
    main_cst_12, main_v44, main_v45, main_v46, main_v47, main_cst_13, main_v48, main_v49, main_call10_v0, main_v50 ]

/-- The k-th operation writes exactly the k-th buffer of `wr`. -/
theorem writesEach : WritesEach (ops (F := F)) wr := by repeat' constructor

section Line

variable (V : Valuation τ sig (Elt F))

/-- What the four arguments' buffers hold when the line starts. -/
abbrev X0 : (⟨S10000x128, .f32⟩ : BufTy).Contents (Elt F) := V (Proc.devRef .tc main_arg0)
@[inherit_doc X0]
abbrev X1 : (⟨S10000x10000, .f32⟩ : BufTy).Contents (Elt F) := V (Proc.devRef .tc main_arg1)
@[inherit_doc X0]
abbrev X2 : (⟨S128x128, .f32⟩ : BufTy).Contents (Elt F) := V (Proc.devRef .tc main_arg2)
@[inherit_doc X0]
abbrev X3 : (⟨S128, .f32⟩ : BufTy).Contents (Elt F) := V (Proc.devRef .tc main_arg3)

/-! The arguments: no operation writes them, so they hold after the line what they held before it. -/

theorem st_main_arg0 : after ops V (Proc.devRef .tc main_arg0) = X0 V :=
  after_of_not_written writesEach V main_arg0 (by decide)
theorem st_main_arg1 : after ops V (Proc.devRef .tc main_arg1) = X1 V :=
  after_of_not_written writesEach V main_arg1 (by decide)
theorem st_main_arg2 : after ops V (Proc.devRef .tc main_arg2) = X2 V :=
  after_of_not_written writesEach V main_arg2 (by decide)
theorem st_main_arg3 : after ops V (Proc.devRef .tc main_arg3) = X3 V :=
  after_of_not_written writesEach V main_arg3 (by decide)

/-! The operations, in program order. Each equation reads the operation's result buffer as the operation's function of
    its operands' buffers, and the operands' buffers by the earlier equations. -/

-- the row norm of the first argument: squares, their sum along a row (from the constant 0), as a column, its root
theorem st_main_call0_v0 : after ops V (Proc.devRef .tc main_call0_v0) = ReadP.val_main_call0_v0 (F := F) (X0 V) := by
  rw [after_binary writesEach V 0 main_arg0 main_arg0 main_call0_v0 _ _ _ _ rfl (by decide) (by decide) (by decide),
    st_main_arg0]
  rfl
theorem st_main_call0_cst : after ops V (Proc.devRef .tc main_call0_cst) = ReadP.val_main_call0_cst (F := F) := by
  rw [after_nullary writesEach V 1 main_call0_cst _ _ rfl (by decide)]
  rfl
theorem st_main_call0_v1 : after ops V (Proc.devRef .tc main_call0_v1) = ReadP.val_main_call0_v1 (F := F) (X0 V) := by
  rw [after_binary writesEach V 2 main_call0_v0 main_call0_cst main_call0_v1 _ _ _ _ rfl (by decide) (by decide) (by decide),
    st_main_call0_v0, st_main_call0_cst]
  rfl
theorem st_main_call0_v2 : after ops V (Proc.devRef .tc main_call0_v2) = ReadP.val_main_call0_v2 (F := F) (X0 V) := by
  rw [after_unary writesEach V 3 main_call0_v1 main_call0_v2 _ _ _ rfl (by decide) (by decide), st_main_call0_v1]
  rfl
theorem st_main_v0 : after ops V (Proc.devRef .tc main_v0) = ReadP.val_main_v0 (F := F) (X0 V) := by
  rw [after_unary writesEach V 4 main_call0_v2 main_v0 _ _ _ rfl (by decide) (by decide), st_main_call0_v2]
  rfl

-- the norm floored at a small positive constant
theorem st_main_cst : after ops V (Proc.devRef .tc main_cst) = ReadP.val_main_cst (F := F) := by
  rw [after_nullary writesEach V 5 main_cst _ _ rfl (by decide)]
  rfl
theorem st_main_call1_v0 : after ops V (Proc.devRef .tc main_call1_v0) = ReadP.val_main_call1_v0 (F := F) := by
  rw [after_unary writesEach V 6 main_cst main_call1_v0 _ _ _ rfl (by decide) (by decide), st_main_cst]
  rfl
theorem st_main_call1_v1 : after ops V (Proc.devRef .tc main_call1_v1) = ReadP.val_main_call1_v1 (F := F) := by
  rw [after_unary writesEach V 7 main_call1_v0 main_call1_v1 _ _ _ rfl (by decide) (by decide), st_main_call1_v0]
  rfl
theorem st_main_v1 : after ops V (Proc.devRef .tc main_v1) = ReadP.val_main_v1 (F := F) (X0 V) := by
  rw [after_binary writesEach V 8 main_call1_v1 main_v0 main_v1 _ _ _ _ rfl (by decide) (by decide) (by decide),
    st_main_call1_v1, st_main_v0]
  rfl

-- rows whose norm exceeds the bound are scaled back onto it; the others are kept
theorem st_main_cst_0 : after ops V (Proc.devRef .tc main_cst_0) = ReadP.val_main_cst_0 (F := F) := by
  rw [after_nullary writesEach V 9 main_cst_0 _ _ rfl (by decide)]
  rfl
theorem st_main_v2 : after ops V (Proc.devRef .tc main_v2) = ReadP.val_main_v2 (F := F) := by
  rw [after_unary writesEach V 10 main_cst_0 main_v2 _ _ _ rfl (by decide) (by decide), st_main_cst_0]
  rfl
theorem st_main_v3 : after ops V (Proc.devRef .tc main_v3) = ReadP.val_main_v3 (F := F) (X0 V) := by
  rw [after_binary writesEach V 11 main_v1 main_v2 main_v3 _ _ _ _ rfl (by decide) (by decide) (by decide),
    st_main_v1, st_main_v2]
  rfl
theorem st_main_v4 : after ops V (Proc.devRef .tc main_v4) = ReadP.val_main_v4 (F := F) (X0 V) := by
  rw [after_unary writesEach V 12 main_v1 main_v4 _ _ _ rfl (by decide) (by decide), st_main_v1]
  rfl
theorem st_main_v5 : after ops V (Proc.devRef .tc main_v5) = ReadP.val_main_v5 (F := F) (X0 V) := by
  rw [after_binary writesEach V 13 main_arg0 main_v4 main_v5 _ _ _ _ rfl (by decide) (by decide) (by decide),
    st_main_arg0, st_main_v4]
  rfl
theorem st_main_cst_1 : after ops V (Proc.devRef .tc main_cst_1) = ReadP.val_main_cst_1 (F := F) := by
  rw [after_nullary writesEach V 14 main_cst_1 _ _ rfl (by decide)]
  rfl
theorem st_main_v6 : after ops V (Proc.devRef .tc main_v6) = ReadP.val_main_v6 (F := F) := by
  rw [after_unary writesEach V 15 main_cst_1 main_v6 _ _ _ rfl (by decide) (by decide), st_main_cst_1]
  rfl
theorem st_main_v7 : after ops V (Proc.devRef .tc main_v7) = ReadP.val_main_v7 (F := F) (X0 V) := by
  rw [after_binary writesEach V 16 main_v5 main_v6 main_v7 _ _ _ _ rfl (by decide) (by decide) (by decide),
    st_main_v5, st_main_v6]
  rfl
theorem st_main_call2_v0 : after ops V (Proc.devRef .tc main_call2_v0) = ReadP.val_main_call2_v0 (F := F) (X0 V) := by
  rw [after_unary writesEach V 17 main_v3 main_call2_v0 _ _ _ rfl (by decide) (by decide), st_main_v3]
  rfl
theorem st_main_v8 : after ops V (Proc.devRef .tc main_v8) = ReadP.val_main_v8 (F := F) (X0 V) := by
  rw [after_ternary writesEach V 18 main_call2_v0 main_v7 main_arg0 main_v8 _ _ _ _ _ rfl
      (by decide) (by decide) (by decide) (by decide),
    st_main_call2_v0, st_main_v7, st_main_arg0]
  rfl

-- the norm of the clamped rows, floored as before
theorem st_main_call3_v0 : after ops V (Proc.devRef .tc main_call3_v0) = ReadP.val_main_call3_v0 (F := F) (X0 V) := by
  rw [after_binary writesEach V 19 main_v8 main_v8 main_call3_v0 _ _ _ _ rfl (by decide) (by decide) (by decide),
    st_main_v8]
  rfl
theorem st_main_call3_cst : after ops V (Proc.devRef .tc main_call3_cst) = ReadP.val_main_call3_cst (F := F) := by
  rw [after_nullary writesEach V 20 main_call3_cst _ _ rfl (by decide)]
  rfl
theorem st_main_call3_v1 : after ops V (Proc.devRef .tc main_call3_v1) = ReadP.val_main_call3_v1 (F := F) (X0 V) := by
  rw [after_binary writesEach V 21 main_call3_v0 main_call3_cst main_call3_v1 _ _ _ _ rfl (by decide) (by decide) (by decide),
    st_main_call3_v0, st_main_call3_cst]
  rfl
theorem st_main_call3_v2 : after ops V (Proc.devRef .tc main_call3_v2) = ReadP.val_main_call3_v2 (F := F) (X0 V) := by
  rw [after_unary writesEach V 22 main_call3_v1 main_call3_v2 _ _ _ rfl (by decide) (by decide), st_main_call3_v1]
  rfl
theorem st_main_v9 : after ops V (Proc.devRef .tc main_v9) = ReadP.val_main_v9 (F := F) (X0 V) := by
  rw [after_unary writesEach V 23 main_call3_v2 main_v9 _ _ _ rfl (by decide) (by decide), st_main_call3_v2]
  rfl
theorem st_main_cst_2 : after ops V (Proc.devRef .tc main_cst_2) = ReadP.val_main_cst_2 (F := F) := by
  rw [after_nullary writesEach V 24 main_cst_2 _ _ rfl (by decide)]
  rfl
theorem st_main_call4_v0 : after ops V (Proc.devRef .tc main_call4_v0) = ReadP.val_main_call4_v0 (F := F) := by
  rw [after_unary writesEach V 25 main_cst_2 main_call4_v0 _ _ _ rfl (by decide) (by decide), st_main_cst_2]
  rfl
theorem st_main_call4_v1 : after ops V (Proc.devRef .tc main_call4_v1) = ReadP.val_main_call4_v1 (F := F) := by
  rw [after_unary writesEach V 26 main_call4_v0 main_call4_v1 _ _ _ rfl (by decide) (by decide), st_main_call4_v0]
  rfl
theorem st_main_v10 : after ops V (Proc.devRef .tc main_v10) = ReadP.val_main_v10 (F := F) (X0 V) := by
  rw [after_binary writesEach V 27 main_call4_v1 main_v9 main_v10 _ _ _ _ rfl (by decide) (by decide) (by decide),
    st_main_call4_v1, st_main_v9]
  rfl

-- the unit direction of a row (the row over its norm, over the constant 1)
theorem st_main_v11 : after ops V (Proc.devRef .tc main_v11) = ReadP.val_main_v11 (F := F) (X0 V) := by
  rw [after_unary writesEach V 28 main_v10 main_v11 _ _ _ rfl (by decide) (by decide), st_main_v10]
  rfl
theorem st_main_v12 : after ops V (Proc.devRef .tc main_v12) = ReadP.val_main_v12 (F := F) (X0 V) := by
  rw [after_binary writesEach V 29 main_v8 main_v11 main_v12 _ _ _ _ rfl (by decide) (by decide) (by decide),
    st_main_v8, st_main_v11]
  rfl
theorem st_main_cst_3 : after ops V (Proc.devRef .tc main_cst_3) = ReadP.val_main_cst_3 (F := F) := by
  rw [after_nullary writesEach V 30 main_cst_3 _ _ rfl (by decide)]
  rfl
theorem st_main_v13 : after ops V (Proc.devRef .tc main_v13) = ReadP.val_main_v13 (F := F) := by
  rw [after_unary writesEach V 31 main_cst_3 main_v13 _ _ _ rfl (by decide) (by decide), st_main_cst_3]
  rfl
theorem st_main_v14 : after ops V (Proc.devRef .tc main_v14) = ReadP.val_main_v14 (F := F) (X0 V) := by
  rw [after_binary writesEach V 32 main_v12 main_v13 main_v14 _ _ _ _ rfl (by decide) (by decide) (by decide),
    st_main_v12, st_main_v13]
  rfl

-- the inverse hyperbolic tangent of the norm, kept inside (-1, 1): half the difference of two logarithms
theorem st_main_cst_4 : after ops V (Proc.devRef .tc main_cst_4) = ReadP.val_main_cst_4 (F := F) := by
  rw [after_nullary writesEach V 33 main_cst_4 _ _ rfl (by decide)]
  rfl
theorem st_main_v15 : after ops V (Proc.devRef .tc main_v15) = ReadP.val_main_v15 (F := F) := by
  rw [after_unary writesEach V 34 main_cst_4 main_v15 _ _ _ rfl (by decide) (by decide), st_main_cst_4]
  rfl
theorem st_main_v16 : after ops V (Proc.devRef .tc main_v16) = ReadP.val_main_v16 (F := F) (X0 V) := by
  rw [after_binary writesEach V 35 main_v15 main_v10 main_v16 _ _ _ _ rfl (by decide) (by decide) (by decide),
    st_main_v15, st_main_v10]
  rfl
theorem st_main_cst_5 : after ops V (Proc.devRef .tc main_cst_5) = ReadP.val_main_cst_5 (F := F) := by
  rw [after_nullary writesEach V 36 main_cst_5 _ _ rfl (by decide)]
  rfl
theorem st_main_cst_6 : after ops V (Proc.devRef .tc main_cst_6) = ReadP.val_main_cst_6 (F := F) := by
  rw [after_nullary writesEach V 37 main_cst_6 _ _ rfl (by decide)]
  rfl
theorem st_main_call5_v0 : after ops V (Proc.devRef .tc main_call5_v0) = ReadP.val_main_call5_v0 (F := F) := by
  rw [after_unary writesEach V 38 main_cst_5 main_call5_v0 _ _ _ rfl (by decide) (by decide), st_main_cst_5]
  rfl
theorem st_main_call5_v1 : after ops V (Proc.devRef .tc main_call5_v1) = ReadP.val_main_call5_v1 (F := F) := by
  rw [after_unary writesEach V 39 main_call5_v0 main_call5_v1 _ _ _ rfl (by decide) (by decide), st_main_call5_v0]
  rfl
theorem st_main_call5_v2 : after ops V (Proc.devRef .tc main_call5_v2) = ReadP.val_main_call5_v2 (F := F) (X0 V) := by
  rw [after_binary writesEach V 40 main_call5_v1 main_v16 main_call5_v2 _ _ _ _ rfl (by decide) (by decide) (by decide),
    st_main_call5_v1, st_main_v16]
  rfl
theorem st_main_call5_v3 : after ops V (Proc.devRef .tc main_call5_v3) = ReadP.val_main_call5_v3 (F := F) := by
  rw [after_unary writesEach V 41 main_cst_6 main_call5_v3 _ _ _ rfl (by decide) (by decide), st_main_cst_6]
  rfl
theorem st_main_call5_v4 : after ops V (Proc.devRef .tc main_call5_v4) = ReadP.val_main_call5_v4 (F := F) := by
  rw [after_unary writesEach V 42 main_call5_v3 main_call5_v4 _ _ _ rfl (by decide) (by decide), st_main_call5_v3]
  rfl
theorem st_main_v17 : after ops V (Proc.devRef .tc main_v17) = ReadP.val_main_v17 (F := F) (X0 V) := by
  rw [after_binary writesEach V 43 main_call5_v4 main_call5_v2 main_v17 _ _ _ _ rfl (by decide) (by decide) (by decide),
    st_main_call5_v4, st_main_call5_v2]
  rfl
theorem st_main_v18 : after ops V (Proc.devRef .tc main_v18) = ReadP.val_main_v18 (F := F) (X0 V) := by
  rw [after_unary writesEach V 44 main_v17 main_v18 _ _ _ rfl (by decide) (by decide), st_main_v17]
  rfl
theorem st_main_v19 : after ops V (Proc.devRef .tc main_v19) = ReadP.val_main_v19 (F := F) (X0 V) := by
  rw [after_unary writesEach V 45 main_v17 main_v19 _ _ _ rfl (by decide) (by decide), st_main_v17]
  rfl
theorem st_main_v20 : after ops V (Proc.devRef .tc main_v20) = ReadP.val_main_v20 (F := F) (X0 V) := by
  rw [after_unary writesEach V 46 main_v19 main_v20 _ _ _ rfl (by decide) (by decide), st_main_v19]
  rfl
theorem st_main_v21 : after ops V (Proc.devRef .tc main_v21) = ReadP.val_main_v21 (F := F) (X0 V) := by
  rw [after_binary writesEach V 47 main_v18 main_v20 main_v21 _ _ _ _ rfl (by decide) (by decide) (by decide),
    st_main_v18, st_main_v20]
  rfl
theorem st_main_cst_7 : after ops V (Proc.devRef .tc main_cst_7) = ReadP.val_main_cst_7 (F := F) := by
  rw [after_nullary writesEach V 48 main_cst_7 _ _ rfl (by decide)]
  rfl
theorem st_main_v22 : after ops V (Proc.devRef .tc main_v22) = ReadP.val_main_v22 (F := F) := by
  rw [after_unary writesEach V 49 main_cst_7 main_v22 _ _ _ rfl (by decide) (by decide), st_main_cst_7]
  rfl
theorem st_main_v23 : after ops V (Proc.devRef .tc main_v23) = ReadP.val_main_v23 (F := F) (X0 V) := by
  rw [after_binary writesEach V 50 main_v22 main_v21 main_v23 _ _ _ _ rfl (by decide) (by decide) (by decide),
    st_main_v22, st_main_v21]
  rfl

-- the logarithm map of a row: its unit direction scaled by that number
theorem st_main_v24 : after ops V (Proc.devRef .tc main_v24) = ReadP.val_main_v24 (F := F) (X0 V) := by
  rw [after_unary writesEach V 51 main_v23 main_v24 _ _ _ rfl (by decide) (by decide), st_main_v23]
  rfl
theorem st_main_v25 : after ops V (Proc.devRef .tc main_v25) = ReadP.val_main_v25 (F := F) (X0 V) := by
  rw [after_binary writesEach V 52 main_v14 main_v24 main_v25 _ _ _ _ rfl (by decide) (by decide) (by decide),
    st_main_v14, st_main_v24]
  rfl

-- the linear layer (times the third argument, plus the fourth along every row), then times the second argument
theorem st_main_v26 : after ops V (Proc.devRef .tc main_v26) = ReadP.val_main_v26 (F := F) (X0 V) (X2 V) := by
  rw [after_binary writesEach V 53 main_v25 main_arg2 main_v26 _ _ _ _ rfl (by decide) (by decide) (by decide),
    st_main_v25, st_main_arg2]
  rfl
theorem st_main_v27 : after ops V (Proc.devRef .tc main_v27) = ReadP.val_main_v27 (F := F) (X3 V) := by
  rw [after_unary writesEach V 54 main_arg3 main_v27 _ _ _ rfl (by decide) (by decide), st_main_arg3]
  rfl
theorem st_main_v28 : after ops V (Proc.devRef .tc main_v28) = ReadP.val_main_v28 (F := F) (X3 V) := by
  rw [after_unary writesEach V 55 main_v27 main_v28 _ _ _ rfl (by decide) (by decide), st_main_v27]
  rfl
theorem st_main_v29 : after ops V (Proc.devRef .tc main_v29) = ReadP.val_main_v29 (F := F) (X0 V) (X2 V) (X3 V) := by
  rw [after_binary writesEach V 56 main_v26 main_v28 main_v29 _ _ _ _ rfl (by decide) (by decide) (by decide),
    st_main_v26, st_main_v28]
  rfl
theorem st_main_v30 : after ops V (Proc.devRef .tc main_v30) = ReadP.val_main_v30 (F := F) (X0 V) (X1 V) (X2 V) (X3 V) := by
  rw [after_binary writesEach V 57 main_arg1 main_v29 main_v30 _ _ _ _ rfl (by decide) (by decide) (by decide),
    st_main_arg1, st_main_v29]
  rfl

-- the norm of the product's rows, floored as before
theorem st_main_call6_v0 :
    after ops V (Proc.devRef .tc main_call6_v0) = ReadP.val_main_call6_v0 (F := F) (X0 V) (X1 V) (X2 V) (X3 V) := by
  rw [after_binary writesEach V 58 main_v30 main_v30 main_call6_v0 _ _ _ _ rfl (by decide) (by decide) (by decide),
    st_main_v30]
  rfl
theorem st_main_call6_cst : after ops V (Proc.devRef .tc main_call6_cst) = ReadP.val_main_call6_cst (F := F) := by
  rw [after_nullary writesEach V 59 main_call6_cst _ _ rfl (by decide)]
  rfl
theorem st_main_call6_v1 :
    after ops V (Proc.devRef .tc main_call6_v1) = ReadP.val_main_call6_v1 (F := F) (X0 V) (X1 V) (X2 V) (X3 V) := by
  rw [after_binary writesEach V 60 main_call6_v0 main_call6_cst main_call6_v1 _ _ _ _ rfl (by decide) (by decide) (by decide),
    st_main_call6_v0, st_main_call6_cst]
  rfl
theorem st_main_call6_v2 :
    after ops V (Proc.devRef .tc main_call6_v2) = ReadP.val_main_call6_v2 (F := F) (X0 V) (X1 V) (X2 V) (X3 V) := by
  rw [after_unary writesEach V 61 main_call6_v1 main_call6_v2 _ _ _ rfl (by decide) (by decide), st_main_call6_v1]
  rfl
theorem st_main_v31 : after ops V (Proc.devRef .tc main_v31) = ReadP.val_main_v31 (F := F) (X0 V) (X1 V) (X2 V) (X3 V) := by
  rw [after_unary writesEach V 62 main_call6_v2 main_v31 _ _ _ rfl (by decide) (by decide), st_main_call6_v2]
  rfl
theorem st_main_cst_8 : after ops V (Proc.devRef .tc main_cst_8) = ReadP.val_main_cst_8 (F := F) := by
  rw [after_nullary writesEach V 63 main_cst_8 _ _ rfl (by decide)]
  rfl
theorem st_main_call7_v0 : after ops V (Proc.devRef .tc main_call7_v0) = ReadP.val_main_call7_v0 (F := F) := by
  rw [after_unary writesEach V 64 main_cst_8 main_call7_v0 _ _ _ rfl (by decide) (by decide), st_main_cst_8]
  rfl
theorem st_main_call7_v1 : after ops V (Proc.devRef .tc main_call7_v1) = ReadP.val_main_call7_v1 (F := F) := by
  rw [after_unary writesEach V 65 main_call7_v0 main_call7_v1 _ _ _ rfl (by decide) (by decide), st_main_call7_v0]
  rfl
theorem st_main_v32 : after ops V (Proc.devRef .tc main_v32) = ReadP.val_main_v32 (F := F) (X0 V) (X1 V) (X2 V) (X3 V) := by
  rw [after_binary writesEach V 66 main_call7_v1 main_v31 main_v32 _ _ _ _ rfl (by decide) (by decide) (by decide),
    st_main_call7_v1, st_main_v31]
  rfl

-- the exponential map of a row: the row scaled by the hyperbolic tangent of its norm over its norm
theorem st_main_cst_9 : after ops V (Proc.devRef .tc main_cst_9) = ReadP.val_main_cst_9 (F := F) := by
  rw [after_nullary writesEach V 67 main_cst_9 _ _ rfl (by decide)]
  rfl
theorem st_main_v33 : after ops V (Proc.devRef .tc main_v33) = ReadP.val_main_v33 (F := F) := by
  rw [after_unary writesEach V 68 main_cst_9 main_v33 _ _ _ rfl (by decide) (by decide), st_main_cst_9]
  rfl
theorem st_main_v34 : after ops V (Proc.devRef .tc main_v34) = ReadP.val_main_v34 (F := F) (X0 V) (X1 V) (X2 V) (X3 V) := by
  rw [after_binary writesEach V 69 main_v33 main_v32 main_v34 _ _ _ _ rfl (by decide) (by decide) (by decide),
    st_main_v33, st_main_v32]
  rfl
theorem st_main_v35 : after ops V (Proc.devRef .tc main_v35) = ReadP.val_main_v35 (F := F) (X0 V) (X1 V) (X2 V) (X3 V) := by
  rw [after_unary writesEach V 70 main_v34 main_v35 _ _ _ rfl (by decide) (by decide), st_main_v34]
  rfl
theorem st_main_v36 : after ops V (Proc.devRef .tc main_v36) = ReadP.val_main_v36 (F := F) (X0 V) (X1 V) (X2 V) (X3 V) := by
  rw [after_unary writesEach V 71 main_v35 main_v36 _ _ _ rfl (by decide) (by decide), st_main_v35]
  rfl
theorem st_main_v37 : after ops V (Proc.devRef .tc main_v37) = ReadP.val_main_v37 (F := F) (X0 V) (X1 V) (X2 V) (X3 V) := by
  rw [after_binary writesEach V 72 main_v36 main_v30 main_v37 _ _ _ _ rfl (by decide) (by decide) (by decide),
    st_main_v36, st_main_v30]
  rfl
theorem st_main_cst_10 : after ops V (Proc.devRef .tc main_cst_10) = ReadP.val_main_cst_10 (F := F) := by
  rw [after_nullary writesEach V 73 main_cst_10 _ _ rfl (by decide)]
  rfl
theorem st_main_v38 : after ops V (Proc.devRef .tc main_v38) = ReadP.val_main_v38 (F := F) := by
  rw [after_unary writesEach V 74 main_cst_10 main_v38 _ _ _ rfl (by decide) (by decide), st_main_cst_10]
  rfl
theorem st_main_v39 : after ops V (Proc.devRef .tc main_v39) = ReadP.val_main_v39 (F := F) (X0 V) (X1 V) (X2 V) (X3 V) := by
  rw [after_binary writesEach V 75 main_v38 main_v32 main_v39 _ _ _ _ rfl (by decide) (by decide) (by decide),
    st_main_v38, st_main_v32]
  rfl
theorem st_main_v40 : after ops V (Proc.devRef .tc main_v40) = ReadP.val_main_v40 (F := F) (X0 V) (X1 V) (X2 V) (X3 V) := by
  rw [after_unary writesEach V 76 main_v39 main_v40 _ _ _ rfl (by decide) (by decide), st_main_v39]
  rfl
theorem st_main_v41 : after ops V (Proc.devRef .tc main_v41) = ReadP.val_main_v41 (F := F) (X0 V) (X1 V) (X2 V) (X3 V) := by
  rw [after_binary writesEach V 77 main_v37 main_v40 main_v41 _ _ _ _ rfl (by decide) (by decide) (by decide),
    st_main_v37, st_main_v40]
  rfl

-- its norm, floored as before
theorem st_main_call8_v0 :
    after ops V (Proc.devRef .tc main_call8_v0) = ReadP.val_main_call8_v0 (F := F) (X0 V) (X1 V) (X2 V) (X3 V) := by
  rw [after_binary writesEach V 78 main_v41 main_v41 main_call8_v0 _ _ _ _ rfl (by decide) (by decide) (by decide),
    st_main_v41]
  rfl
theorem st_main_call8_cst : after ops V (Proc.devRef .tc main_call8_cst) = ReadP.val_main_call8_cst (F := F) := by
  rw [after_nullary writesEach V 79 main_call8_cst _ _ rfl (by decide)]
  rfl
theorem st_main_call8_v1 :
    after ops V (Proc.devRef .tc main_call8_v1) = ReadP.val_main_call8_v1 (F := F) (X0 V) (X1 V) (X2 V) (X3 V) := by
  rw [after_binary writesEach V 80 main_call8_v0 main_call8_cst main_call8_v1 _ _ _ _ rfl (by decide) (by decide) (by decide),
    st_main_call8_v0, st_main_call8_cst]
  rfl
theorem st_main_call8_v2 :
    after ops V (Proc.devRef .tc main_call8_v2) = ReadP.val_main_call8_v2 (F := F) (X0 V) (X1 V) (X2 V) (X3 V) := by
  rw [after_unary writesEach V 81 main_call8_v1 main_call8_v2 _ _ _ rfl (by decide) (by decide), st_main_call8_v1]
  rfl
theorem st_main_v42 : after ops V (Proc.devRef .tc main_v42) = ReadP.val_main_v42 (F := F) (X0 V) (X1 V) (X2 V) (X3 V) := by
  rw [after_unary writesEach V 82 main_call8_v2 main_v42 _ _ _ rfl (by decide) (by decide), st_main_call8_v2]
  rfl
theorem st_main_cst_11 : after ops V (Proc.devRef .tc main_cst_11) = ReadP.val_main_cst_11 (F := F) := by
  rw [after_nullary writesEach V 83 main_cst_11 _ _ rfl (by decide)]
  rfl
theorem st_main_call9_v0 : after ops V (Proc.devRef .tc main_call9_v0) = ReadP.val_main_call9_v0 (F := F) := by
  rw [after_unary writesEach V 84 main_cst_11 main_call9_v0 _ _ _ rfl (by decide) (by decide), st_main_cst_11]
  rfl
theorem st_main_call9_v1 : after ops V (Proc.devRef .tc main_call9_v1) = ReadP.val_main_call9_v1 (F := F) := by
  rw [after_unary writesEach V 85 main_call9_v0 main_call9_v1 _ _ _ rfl (by decide) (by decide), st_main_call9_v0]
  rfl
theorem st_main_v43 : after ops V (Proc.devRef .tc main_v43) = ReadP.val_main_v43 (F := F) (X0 V) (X1 V) (X2 V) (X3 V) := by
  rw [after_binary writesEach V 86 main_call9_v1 main_v42 main_v43 _ _ _ _ rfl (by decide) (by decide) (by decide),
    st_main_call9_v1, st_main_v42]
  rfl

-- rows whose norm exceeds the bound are scaled back onto it; the others are kept: the result
theorem st_main_cst_12 : after ops V (Proc.devRef .tc main_cst_12) = ReadP.val_main_cst_12 (F := F) := by
  rw [after_nullary writesEach V 87 main_cst_12 _ _ rfl (by decide)]
  rfl
theorem st_main_v44 : after ops V (Proc.devRef .tc main_v44) = ReadP.val_main_v44 (F := F) := by
  rw [after_unary writesEach V 88 main_cst_12 main_v44 _ _ _ rfl (by decide) (by decide), st_main_cst_12]
  rfl
theorem st_main_v45 : after ops V (Proc.devRef .tc main_v45) = ReadP.val_main_v45 (F := F) (X0 V) (X1 V) (X2 V) (X3 V) := by
  rw [after_binary writesEach V 89 main_v43 main_v44 main_v45 _ _ _ _ rfl (by decide) (by decide) (by decide),
    st_main_v43, st_main_v44]
  rfl
theorem st_main_v46 : after ops V (Proc.devRef .tc main_v46) = ReadP.val_main_v46 (F := F) (X0 V) (X1 V) (X2 V) (X3 V) := by
  rw [after_unary writesEach V 90 main_v43 main_v46 _ _ _ rfl (by decide) (by decide), st_main_v43]
  rfl
theorem st_main_v47 : after ops V (Proc.devRef .tc main_v47) = ReadP.val_main_v47 (F := F) (X0 V) (X1 V) (X2 V) (X3 V) := by
  rw [after_binary writesEach V 91 main_v41 main_v46 main_v47 _ _ _ _ rfl (by decide) (by decide) (by decide),
    st_main_v41, st_main_v46]
  rfl
theorem st_main_cst_13 : after ops V (Proc.devRef .tc main_cst_13) = ReadP.val_main_cst_13 (F := F) := by
  rw [after_nullary writesEach V 92 main_cst_13 _ _ rfl (by decide)]
  rfl
theorem st_main_v48 : after ops V (Proc.devRef .tc main_v48) = ReadP.val_main_v48 (F := F) := by
  rw [after_unary writesEach V 93 main_cst_13 main_v48 _ _ _ rfl (by decide) (by decide), st_main_cst_13]
  rfl
theorem st_main_v49 : after ops V (Proc.devRef .tc main_v49) = ReadP.val_main_v49 (F := F) (X0 V) (X1 V) (X2 V) (X3 V) := by
  rw [after_binary writesEach V 94 main_v47 main_v48 main_v49 _ _ _ _ rfl (by decide) (by decide) (by decide),
    st_main_v47, st_main_v48]
  rfl
theorem st_main_call10_v0 :
    after ops V (Proc.devRef .tc main_call10_v0) = ReadP.val_main_call10_v0 (F := F) (X0 V) (X1 V) (X2 V) (X3 V) := by
  rw [after_unary writesEach V 95 main_v45 main_call10_v0 _ _ _ rfl (by decide) (by decide), st_main_v45]
  rfl
theorem st_main_v50 : after ops V (Proc.devRef .tc main_v50) = ReadP.val_main_v50 (F := F) (X0 V) (X1 V) (X2 V) (X3 V) := by
  rw [after_ternary writesEach V 96 main_call10_v0 main_v49 main_v41 main_v50 _ _ _ _ _ rfl
      (by decide) (by decide) (by decide) (by decide),
    st_main_call10_v0, st_main_v49, st_main_v41]
  rfl

end Line

/-- On every device, from any memory with zero counters: every weakly fair execution of @main terminates with the result
    buffer at the last stage of what the four arguments' buffers held at the start, and those four buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = ReadP.val_main_v50 (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v50).trans (st_main_v50 (launchContents m c)),
        (h c main_arg0).trans (st_main_arg0 (launchContents m c)),
        (h c main_arg1).trans (st_main_arg1 (launchContents m c)),
        (h c main_arg2).trans (st_main_arg2 (launchContents m c)),
        (h c main_arg3).trans (st_main_arg3 (launchContents m c))⟩)
    (RunP.run_line m ρ)

end Cert.ReferenceIdeal.Stages

end
-- ==== Proof.Consts.lean ====
/-
  The float constants the two programs spell, as the extended reals their patterns denote: the floor of a norm
  `ε = 9444733 · 2⁻⁷³` (the single-precision value nearest 10⁻¹⁵), the radius `μ = 16777048 / 2²⁴` of the ball the
  points are kept inside (nearest 1 − 10⁻⁵), the bounds `±χ = ±16777214 / 2²⁴` the reference clips the argument of its
  inverse hyperbolic tangent to (nearest 1 − 10⁻⁷), and 1 and 1/2. What the proofs use of them is only their order:
  `0 < ε < μ < χ < 1`.
-/
import Idealize.ShloMosaic.PureOps.Ideal

noncomputable section

namespace Cert.Consts

open Idealize.ShloMosaic

/-- The floor of a norm, as a real. -/
def epsR : ℝ := 9444733 / 2 ^ 73
/-- The radius of the ball, as a real. -/
def muR : ℝ := 16777048 / 16777216
/-- The clip bound of the inverse hyperbolic tangent's argument, as a real. -/
def chiR : ℝ := 16777214 / 16777216

theorem ofBits_eps : Ideal.ofBits .f32 0x26901D7D#32 = ((epsR : ℝ) : EReal) := by
  simp [Ideal.ofBits, Ideal.ieee, epsR, -EReal.coe_mul]; norm_num

theorem ofBits_mu : Ideal.ofBits .f32 0x3F7FFF58#32 = ((muR : ℝ) : EReal) := by
  simp [Ideal.ofBits, Ideal.ieee, muR, -EReal.coe_mul]; norm_num

theorem ofBits_chi : Ideal.ofBits .f32 0x3F7FFFFE#32 = ((chiR : ℝ) : EReal) := by
  simp [Ideal.ofBits, Ideal.ieee, chiR, -EReal.coe_mul]; norm_num

theorem ofBits_neg_chi : Ideal.ofBits .f32 0xBF7FFFFE#32 = ((-chiR : ℝ) : EReal) := by
  simp [Ideal.ofBits, Ideal.ieee, chiR, -EReal.coe_mul, -EReal.coe_neg]; norm_num

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one_bf16 : Ideal.ofBits .bf16 0x3F80#16 = ((1 : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee]

theorem epsR_pos : 0 < epsR := by unfold epsR; positivity
theorem epsR_lt_muR : epsR < muR := by unfold epsR muR; norm_num
theorem muR_lt_chiR : muR < chiR := by unfold muR chiR; norm_num
theorem chiR_lt_one : chiR < 1 := by unfold chiR; norm_num
theorem muR_pos : 0 < muR := by unfold muR; norm_num
theorem muR_lt_one : muR < 1 := by unfold muR; norm_num

end Cert.Consts

end
-- ==== Proof.RefIsG.lean ====
/-
  The reference's last stage, read at an index over the extended reals, is the specification's function `GR`.

  The reference computes, row by row: the row pulled back into the ball of radius μ (`proj`), its logarithm map at the
  origin (`rLog`), the linear layer and the aggregation over the adjacency (`accR`), the exponential map at the origin
  (`gam`) and the pull-back into the ball again (`rExp`).  Each of these is read here off the stages, going down the
  program: a stage at an index is the operation's scalar function of its operands' stages at the indices the operation
  reads them at (for a broadcast, the index with the broadcast coordinate dropped; for a reduction or a contraction, a sum
  over the contracted coordinate).  Nothing is assumed of the arrays: every identity below holds at every extended real.
-/
import proofs.«152415_g58454504898751_cont_sun_c4_404_16_alg».proof.Proof.RefRead
import proofs.«152415_g58454504898751_cont_sun_c4_404_16_alg».proof.Proof.Spec
import proofs.«152415_g58454504898751_cont_sun_c4_404_16_alg».proof.Proof.Consts
import Idealize.ShloMosaic.Lib.ValueIdx
import Idealize.ShloMosaic.PureOps.Ideal.Laws

noncomputable section

namespace Cert.ReferenceIdeal.RefValue

open Cert.ReferenceIdeal Cert.ReferenceIdeal.ReadP Idealize.ShloMosaic Idealize.ShloMosaic.ValueIdx Cert.RowMaps Cert.Spec

/-- An array of 10000 rows of 128 extended reals, and the other three arguments' types. -/
abbrev Feat : Type := (⟨S10000x128, .f32⟩ : BufTy).Contents (Elt Ideal)
@[inherit_doc Feat]
abbrev Adjc : Type := (⟨S10000x10000, .f32⟩ : BufTy).Contents (Elt Ideal)
@[inherit_doc Feat]
abbrev Wgt : Type := (⟨S128x128, .f32⟩ : BufTy).Contents (Elt Ideal)
@[inherit_doc Feat]
abbrev Bias : Type := (⟨S128, .f32⟩ : BufTy).Contents (Elt Ideal)

/-- Row `r` of an array. -/
abbrev row (y : Feat) (r : Fin 10000) : Fin 128 → EReal := fun k => y (ix2 r k)

/-! ## The floored norm of a row

A norm site squares the entries, sums a row's squares from the constant 0, takes the root and floors it at ε:
`max ε (√(0 + ∑ₖ yₖ²))`, which is `rnorm y = max (√(∑ₖ yₖ²)) ε`. -/

theorem floored (y : Fin 128 → EReal) :
    max (Ideal.ofBits .f32 0x26901D7D#32) (Ideal.sqrt (Ideal.ofBits .f32 0x00000000#32 + ∑ k : Fin 128, y k * y k))
      = rnorm y := by
  rw [Consts.ofBits_zero, EReal.coe_zero, zero_add, max_comm]
  rfl

/-- The index a row's sum reads the squares at: row `r`, column `k`. -/
theorem idx0 (r : Fin 10000) (c : Fin 1) (k : Fin 128) :
    idx_main_call0_v1 (idx_main_call0_v2 (ix2 r c)) k = ix2 r k :=
  funext fun a => Fin.ext (by match a with | ⟨0, _⟩ => rfl | ⟨1, _⟩ => rfl)

/-- The first norm site: the floored norm of a row of the first argument. -/
theorem v1_at (x0 : Feat) (r : Fin 10000) (c : Fin 1) :
    val_main_v1 (F := Ideal) x0 (ix2 r c) = rnorm (row x0 r) := by
  rw [val_main_v1_apply, val_main_call1_v1_apply, val_main_call1_v0_apply, val_main_cst_apply, val_main_v0_apply,
    val_main_call0_v2_apply, val_main_call0_v1_apply, val_main_call0_cst_apply]
  simp only [val_main_call0_v0_apply, idx0, Ideal.maximumf_def, Ideal.hostUnary_sqrt_def, Ideal.mulf_def, Ideal.ofBits_def]
  exact floored (row x0 r)

/-! ## A select on a comparison

At the extended reals a comparison is the bit of the order's decision, and a select on that bit is the `if`. So
"keep the row unless its norm `n` exceeds μ, else scale it by μ / n" is `proj`. -/

theorem select_decide {α : Type} (p : Prop) [Decidable p] (a b : α) :
    Scalar.select (BitVec.ofBool (decide p)) a b = if p then a else b := by
  by_cases h : p
  · rw [if_pos h, decide_eq_true h]; exact select_one a b
  · rw [if_neg h, decide_eq_false h]; exact select_zero a b

theorem select_proj (y : Fin 128 → EReal) (k : Fin 128) :
    Scalar.select (Ideal.cmp .ogt (rnorm y) (Ideal.ofBits .f32 0x3F7FFF58#32))
        (Ideal.div (y k) (rnorm y) * Ideal.ofBits .f32 0x3F7FFF58#32) (y k)
      = proj y k := by
  simp only [Ideal.cmp]
  rw [select_decide]
  rfl

/-! ## The indices the operations read their operands at

A broadcast along the columns reads its operand at the row's one entry; a row's sum reads column `k`; a contraction
reads its left operand at (row, `k`) and its right operand at (`k`, column); the bias is read at the column. -/

theorem bc4 (r : Fin 10000) (k : Fin 128) : idx_main_v4 (ix2 r k) = ix2 r ⟨0, Nat.one_pos⟩ :=
  funext fun a => Fin.ext (by match a with | ⟨0, _⟩ => rfl | ⟨1, _⟩ => rfl)
theorem bcc2 (r : Fin 10000) (k : Fin 128) : idx_main_call2_v0 (ix2 r k) = ix2 r ⟨0, Nat.one_pos⟩ :=
  funext fun a => Fin.ext (by match a with | ⟨0, _⟩ => rfl | ⟨1, _⟩ => rfl)
theorem bc11 (r : Fin 10000) (k : Fin 128) : idx_main_v11 (ix2 r k) = ix2 r ⟨0, Nat.one_pos⟩ :=
  funext fun a => Fin.ext (by match a with | ⟨0, _⟩ => rfl | ⟨1, _⟩ => rfl)
theorem bc24 (r : Fin 10000) (k : Fin 128) : idx_main_v24 (ix2 r k) = ix2 r ⟨0, Nat.one_pos⟩ :=
  funext fun a => Fin.ext (by match a with | ⟨0, _⟩ => rfl | ⟨1, _⟩ => rfl)
theorem bc36 (r : Fin 10000) (k : Fin 128) : idx_main_v36 (ix2 r k) = ix2 r ⟨0, Nat.one_pos⟩ :=
  funext fun a => Fin.ext (by match a with | ⟨0, _⟩ => rfl | ⟨1, _⟩ => rfl)
theorem bc40 (r : Fin 10000) (k : Fin 128) : idx_main_v40 (ix2 r k) = ix2 r ⟨0, Nat.one_pos⟩ :=
  funext fun a => Fin.ext (by match a with | ⟨0, _⟩ => rfl | ⟨1, _⟩ => rfl)
theorem bc46 (r : Fin 10000) (k : Fin 128) : idx_main_v46 (ix2 r k) = ix2 r ⟨0, Nat.one_pos⟩ :=
  funext fun a => Fin.ext (by match a with | ⟨0, _⟩ => rfl | ⟨1, _⟩ => rfl)
theorem bcc10 (r : Fin 10000) (k : Fin 128) : idx_main_call10_v0 (ix2 r k) = ix2 r ⟨0, Nat.one_pos⟩ :=
  funext fun a => Fin.ext (by match a with | ⟨0, _⟩ => rfl | ⟨1, _⟩ => rfl)

theorem idx3 (r : Fin 10000) (c : Fin 1) (k : Fin 128) :
    idx_main_call3_v1 (idx_main_call3_v2 (ix2 r c)) k = ix2 r k :=
  funext fun a => Fin.ext (by match a with | ⟨0, _⟩ => rfl | ⟨1, _⟩ => rfl)
theorem idx6 (r : Fin 10000) (c : Fin 1) (k : Fin 128) :
    idx_main_call6_v1 (idx_main_call6_v2 (ix2 r c)) k = ix2 r k :=
  funext fun a => Fin.ext (by match a with | ⟨0, _⟩ => rfl | ⟨1, _⟩ => rfl)
theorem idx8 (r : Fin 10000) (c : Fin 1) (k : Fin 128) :
    idx_main_call8_v1 (idx_main_call8_v2 (ix2 r c)) k = ix2 r k :=
  funext fun a => Fin.ext (by match a with | ⟨0, _⟩ => rfl | ⟨1, _⟩ => rfl)

theorem l26 (k : Fin 10000) (j c : Fin 128) : lidx_main_v26 (ix2 k j) c = ix2 k c :=
  funext fun a => Fin.ext (by match a with | ⟨0, _⟩ => rfl | ⟨1, _⟩ => rfl)
theorem r26 (k : Fin 10000) (j c : Fin 128) : ridx_main_v26 (ix2 k j) c = ix2 c j :=
  funext fun a => Fin.ext (by match a with | ⟨0, _⟩ => rfl | ⟨1, _⟩ => rfl)
theorem l30 (i : Fin 10000) (j : Fin 128) (k : Fin 10000) : lidx_main_v30 (ix2 i j) k = ix2 i k :=
  funext fun a => Fin.ext (by match a with | ⟨0, _⟩ => rfl | ⟨1, _⟩ => rfl)
theorem r30 (i : Fin 10000) (j : Fin 128) (k : Fin 10000) : ridx_main_v30 (ix2 i j) k = ix2 k j :=
  funext fun a => Fin.ext (by match a with | ⟨0, _⟩ => rfl | ⟨1, _⟩ => rfl)
theorem b28 (k : Fin 10000) (j : Fin 128) : idx_main_v27 (idx_main_v28 (ix2 k j)) = ix1 j :=
  funext fun a => Fin.ext (by match a with | ⟨0, _⟩ => rfl)

/-! ## The row pulled back into the ball -/

theorem v8_at (x0 : Feat) (r : Fin 10000) (k : Fin 128) :
    val_main_v8 (F := Ideal) x0 (ix2 r k) = proj (row x0 r) k := by
  rw [val_main_v8_apply, val_main_call2_v0_apply, bcc2, val_main_v3_apply, v1_at, val_main_v2_apply, val_main_cst_0_apply,
    val_main_v7_apply, val_main_v5_apply, val_main_v4_apply, bc4, v1_at, val_main_v6_apply, val_main_cst_1_apply]
  simp only [Ideal.cmpf_def, Ideal.mulf_def, Ideal.hostDivf_def, Ideal.ofBits_def]
  exact select_proj (row x0 r) k

/-- The second norm site: the floored norm of the row pulled back. -/
theorem v10_at (x0 : Feat) (r : Fin 10000) (c : Fin 1) :
    val_main_v10 (F := Ideal) x0 (ix2 r c) = rnorm (proj (row x0 r)) := by
  rw [val_main_v10_apply, val_main_call4_v1_apply, val_main_call4_v0_apply, val_main_cst_2_apply, val_main_v9_apply,
    val_main_call3_v2_apply, val_main_call3_v1_apply, val_main_call3_cst_apply]
  simp only [val_main_call3_v0_apply, idx3, v8_at, Ideal.maximumf_def, Ideal.hostUnary_sqrt_def, Ideal.mulf_def,
    Ideal.ofBits_def]
  exact floored (proj (row x0 r))

/-! ## The logarithm map of a row -/

/-- The norm the inverse hyperbolic tangent is taken at: `1 · ‖·‖` clipped to `[−χ, χ]`. -/
theorem v17_at (x0 : Feat) (r : Fin 10000) (c : Fin 1) :
    val_main_v17 (F := Ideal) x0 (ix2 r c) = clipped (rnorm (proj (row x0 r))) := by
  rw [val_main_v17_apply, val_main_call5_v4_apply, val_main_call5_v3_apply, val_main_cst_6_apply, val_main_call5_v2_apply,
    val_main_call5_v1_apply, val_main_call5_v0_apply, val_main_cst_5_apply, val_main_v16_apply, val_main_v15_apply,
    val_main_cst_4_apply, v10_at]
  rfl

/-- Half the difference of the two logarithms: the inverse hyperbolic tangent there. -/
theorem v23_at (x0 : Feat) (r : Fin 10000) (c : Fin 1) :
    val_main_v23 (F := Ideal) x0 (ix2 r c)
      = half * (Ideal.log1p (clipped (rnorm (proj (row x0 r)))) - Ideal.log1p (-clipped (rnorm (proj (row x0 r))))) := by
  rw [val_main_v23_apply, val_main_v22_apply, val_main_cst_7_apply, val_main_v21_apply, val_main_v18_apply,
    val_main_v20_apply, val_main_v19_apply, v17_at]
  rfl

/-- The unit direction of the row pulled back (over its norm, over 1), times that number. -/
theorem v25_at (x0 : Feat) (r : Fin 10000) (k : Fin 128) :
    val_main_v25 (F := Ideal) x0 (ix2 r k) = rLog (row x0 r) k := by
  rw [val_main_v25_apply, val_main_v14_apply, val_main_v12_apply, v8_at, val_main_v11_apply, bc11, v10_at,
    val_main_v13_apply, val_main_cst_3_apply, val_main_v24_apply, bc24, v23_at]
  rfl

/-! ## The linear layer and the aggregation -/

theorem v29_at (x0 : Feat) (x2 : Wgt) (x3 : Bias) (k : Fin 10000) (j : Fin 128) :
    val_main_v29 (F := Ideal) x0 x2 x3 (ix2 k j) = (∑ c : Fin 128, rLog (row x0 k) c * x2 (ix2 c j)) + x3 (ix1 j) := by
  rw [val_main_v29_apply, val_main_v26_apply, val_main_v28_apply, val_main_v27_apply, b28]
  simp only [l26, r26, v25_at, Ideal.addf_def]

theorem v30_at (x0 : Feat) (x1 : Adjc) (x2 : Wgt) (x3 : Bias) (i : Fin 10000) (j : Fin 128) :
    val_main_v30 (F := Ideal) x0 x1 x2 x3 (ix2 i j) = accR x0 x1 x2 (fun j : Fin 128 => x3 (ix1 j)) i j := by
  rw [val_main_v30_apply]
  simp only [l30, r30, v29_at]
  rfl

/-! ## The exponential map of an aggregated row, and the pull-back into the ball -/

section Exp

variable (x0 : Feat) (x1 : Adjc) (x2 : Wgt) (x3 : Bias)

/-- The third norm site: the floored norm of an aggregated row. -/
theorem v32_at (i : Fin 10000) (c : Fin 1) :
    val_main_v32 (F := Ideal) x0 x1 x2 x3 (ix2 i c) = rnorm (row (val_main_v30 (F := Ideal) x0 x1 x2 x3) i) := by
  rw [val_main_v32_apply, val_main_call7_v1_apply, val_main_call7_v0_apply, val_main_cst_8_apply, val_main_v31_apply,
    val_main_call6_v2_apply, val_main_call6_v1_apply, val_main_call6_cst_apply]
  simp only [val_main_call6_v0_apply, idx6, Ideal.maximumf_def, Ideal.hostUnary_sqrt_def, Ideal.mulf_def, Ideal.ofBits_def]
  exact floored (row (val_main_v30 (F := Ideal) x0 x1 x2 x3) i)

/-- `γ`: the row scaled by the hyperbolic tangent of (1 ·) its norm over (1 ·) its norm. -/
theorem v41_at (i : Fin 10000) (j : Fin 128) :
    val_main_v41 (F := Ideal) x0 x1 x2 x3 (ix2 i j) = gam (row (val_main_v30 (F := Ideal) x0 x1 x2 x3) i) j := by
  rw [val_main_v41_apply, val_main_v37_apply, val_main_v36_apply, bc36, val_main_v35_apply, val_main_v34_apply,
    val_main_v33_apply, val_main_cst_9_apply, v32_at, val_main_v40_apply, bc40, val_main_v39_apply, val_main_v38_apply,
    val_main_cst_10_apply, v32_at]
  rfl

/-- The fourth norm site: the floored norm of `γ`. -/
theorem v43_at (i : Fin 10000) (c : Fin 1) :
    val_main_v43 (F := Ideal) x0 x1 x2 x3 (ix2 i c) = rnorm (gam (row (val_main_v30 (F := Ideal) x0 x1 x2 x3) i)) := by
  rw [val_main_v43_apply, val_main_call9_v1_apply, val_main_call9_v0_apply, val_main_cst_11_apply, val_main_v42_apply,
    val_main_call8_v2_apply, val_main_call8_v1_apply, val_main_call8_cst_apply]
  simp only [val_main_call8_v0_apply, idx8, v41_at, Ideal.maximumf_def, Ideal.hostUnary_sqrt_def, Ideal.mulf_def,
    Ideal.ofBits_def]
  exact floored (gam (row (val_main_v30 (F := Ideal) x0 x1 x2 x3) i))

/-- The result: `γ` pulled back into the ball. -/
theorem v50_at (i : Fin 10000) (j : Fin 128) :
    val_main_v50 (F := Ideal) x0 x1 x2 x3 (ix2 i j) = rExp (row (val_main_v30 (F := Ideal) x0 x1 x2 x3) i) j := by
  rw [val_main_v50_apply, val_main_call10_v0_apply, bcc10, val_main_v45_apply, v43_at, val_main_v44_apply,
    val_main_cst_12_apply, val_main_v49_apply, val_main_v47_apply, v41_at, val_main_v46_apply, bc46, v43_at,
    val_main_v48_apply, val_main_cst_13_apply]
  simp only [Ideal.cmpf_def, Ideal.mulf_def, Ideal.hostDivf_def, Ideal.ofBits_def]
  exact select_proj (gam (row (val_main_v30 (F := Ideal) x0 x1 x2 x3) i)) j

end Exp

/-- The reference's last stage is the specification's function, the bias read as a row of 128 entries. -/
theorem ref_eq_GR (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    Cert.ReferenceIdeal.ReadP.val_main_v50 (F := Ideal) x0 x1 x2 x3 = Cert.Spec.GR x0 x1 x2 (fun j : Fin 128 => x3 (ix1 j)) := by
  funext y
  obtain ⟨i, j, rfl⟩ : ∃ (i : Fin 10000) (j : Fin 128), y = ix2 i j := ⟨y 0, y 1, eq_ix2 y⟩
  rw [v50_at]
  have hrow : row (val_main_v30 (F := Ideal) x0 x1 x2 x3) i
      = fun j' : Fin 128 => accR x0 x1 x2 (fun j : Fin 128 => x3 (ix1 j)) i j' :=
    funext fun j' => v30_at x0 x1 x2 x3 i j'
  rw [hrow]
  rfl

end Cert.ReferenceIdeal.RefValue

end
-- ==== Proof.LogRow.lean ====
/-
  The two tangent maps agree on rows of real numbers.

  For a real row `x` put `s = ∑ xᵢ²` and `n = max (√s) ε`, a real with `n ≥ ε > 0`, and `m = min n μ ∈ [ε, μ] ⊂ (0, 1)`.
  Every intermediate quantity of either map is then the coercion of an explicit real: all divisors are nonzero reals and
  all logarithms are taken at positive reals. The first map (`kLog`) has the value `x_k · (½ log((1 + m) / (1 − m)) / n)`. The second map (`rLog`)
  first replaces the row by `p`, equal to `x / n · μ` when `μ < n` and to `x` otherwise; the floored norm of `p` is `m` in
  both cases, clipping to `[−χ, χ]` leaves `m` unchanged because `0 < m ≤ μ < χ`, and its value is
  `p_k / m / 1 · ½ (log(1 + m) − log(1 − m))`. The two reals are equal by `log(a / b) = log a − log b`.
-/
import proofs.«152415_g58454504898751_cont_sun_c4_404_16_alg».proof.Proof.Consts
import proofs.«152415_g58454504898751_cont_sun_c4_404_16_alg».proof.Proof.RowMaps

noncomputable section

namespace Cert.RowMaps.LogRow

open Idealize.ShloMosaic Cert.Consts Cert.RowMaps

variable {ι : Type} [Fintype ι]

/-! ### Coercion lemmas -/

/-- The coercion of a finite sum of reals is the sum of the coercions. -/
theorem coe_sum (f : ι → ℝ) : ((∑ k, f k : ℝ) : EReal) = ∑ k, (f k : EReal) := by
  classical
  induction (Finset.univ : Finset ι) using Finset.induction_on with
  | empty => simp
  | insert a s ha ih => rw [Finset.sum_insert ha, Finset.sum_insert ha, EReal.coe_add, ih]

theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

theorem eps_eq : eps = ((epsR : ℝ) : EReal) := ofBits_eps
theorem mu_eq : mu = ((muR : ℝ) : EReal) := ofBits_mu
theorem one_eq : one = ((1 : ℝ) : EReal) := ofBits_one
theorem half_eq : half = ((1 / 2 : ℝ) : EReal) := ofBits_half
theorem clo_eq : clo = ((-chiR : ℝ) : EReal) := ofBits_neg_chi
theorem chi_eq : chi = ((chiR : ℝ) : EReal) := ofBits_chi

/-- Division of a real by a nonzero real is real division. -/
theorem div_coe_coe (a b : ℝ) (h : b ≠ 0) : Ideal.div (a : EReal) (b : EReal) = ((a / b : ℝ) : EReal) := by
  rw [Ideal.div_coe h, ← EReal.coe_mul, mul_one_div]

/-- The logarithm at a positive real is the real logarithm. -/
theorem log_coe_pos (r : ℝ) (h : 0 < r) : Ideal.log (r : EReal) = ((Real.log r : ℝ) : EReal) := by
  rw [Ideal.log_coe, if_neg (not_le.mpr h)]

/-- `log1p` at a real above `−1` is the real logarithm of `1 + r`. -/
theorem log1p_coe_pos (r : ℝ) (h : 0 < 1 + r) :
    Ideal.log1p (r : EReal) = ((Real.log (1 + r) : ℝ) : EReal) := by
  rw [Ideal.log1p, ← EReal.coe_one, ← EReal.coe_add, log_coe_pos _ h]

/-! ### The floored norm of a real row -/

/-- The floored Euclidean norm of a real row, as a real. -/
def nR (x : ι → ℝ) : ℝ := max (Real.sqrt (∑ k, x k * x k)) epsR

theorem epsR_le_nR (x : ι → ℝ) : epsR ≤ nR x := le_max_right _ _

theorem nR_pos (x : ι → ℝ) : 0 < nR x := lt_of_lt_of_le epsR_pos (epsR_le_nR x)

theorem sumsq_nonneg (x : ι → ℝ) : 0 ≤ ∑ k, x k * x k :=
  Finset.sum_nonneg (fun k _ => mul_self_nonneg (x k))

/-- The floored norm of a row of reals is the coercion of the real floored norm. -/
theorem rnorm_coe (x : ι → ℝ) : rnorm (fun i => ((x i : ℝ) : EReal)) = ((nR x : ℝ) : EReal) := by
  unfold rnorm nR
  have h : (∑ k, ((x k : ℝ) : EReal) * ((x k : ℝ) : EReal)) = ((∑ k, x k * x k : ℝ) : EReal) := by
    rw [coe_sum]; exact Finset.sum_congr rfl (fun k _ => (EReal.coe_mul _ _).symm)
  rw [h, Ideal.sqrt_coe, if_neg (not_lt.mpr (sumsq_nonneg x)), eps_eq, coe_max]

/-! ### The first tangent map on a real row -/

/-- `x_k · (½ log((1 + m) / (1 − m)) / n)` with every operation read on the extended reals, for reals `n > 0` and
    `0 < m < 1`, is the coercion of the same real expression. -/
theorem kLog_core (a n m : ℝ) (hn : 0 < n) (hm0 : 0 < m) (hm1 : m < 1) :
    (a : EReal) * Ideal.div (half * Ideal.log (Ideal.div (one + (m : EReal)) (one - (m : EReal)))) (n : EReal)
      = ((a * ((1 / 2 * Real.log ((1 + m) / (1 - m))) / n) : ℝ) : EReal) := by
  have h1 : (0 : ℝ) < 1 - m := by linarith
  have h2 : (0 : ℝ) < 1 + m := by linarith
  rw [one_eq, half_eq, ← EReal.coe_add, ← EReal.coe_sub, div_coe_coe _ _ (ne_of_gt h1),
    log_coe_pos _ (div_pos h2 h1), ← EReal.coe_mul, div_coe_coe _ _ (ne_of_gt hn), ← EReal.coe_mul]

/-- `min n μ` for the floored norm `n` of a real row. -/
def mR (x : ι → ℝ) : ℝ := min (nR x) muR

theorem mR_pos (x : ι → ℝ) : 0 < mR x := lt_min (nR_pos x) muR_pos
theorem mR_le_muR (x : ι → ℝ) : mR x ≤ muR := min_le_right _ _
theorem mR_lt_one (x : ι → ℝ) : mR x < 1 := lt_of_le_of_lt (mR_le_muR x) muR_lt_one

/-- The value of the first tangent map on a real row, as a real. -/
def kLogR (x : ι → ℝ) (k : ι) : ℝ :=
  x k * ((1 / 2 * Real.log ((1 + mR x) / (1 - mR x))) / nR x)

theorem kLog_coe (x : ι → ℝ) (k : ι) :
    kLog (fun i => ((x i : ℝ) : EReal)) k = ((kLogR x k : ℝ) : EReal) := by
  unfold kLog
  rw [rnorm_coe, mu_eq, coe_min]
  exact kLog_core (x k) (nR x) (mR x) (nR_pos x) (mR_pos x) (mR_lt_one x)

/-! ### The second tangent map on a real row -/

/-- Clipping to `[−χ, χ]` leaves a real `0 < m ≤ μ` unchanged, since `μ < χ`. -/
theorem clipped_coe (m : ℝ) (hm0 : 0 < m) (hm : m ≤ muR) : clipped (m : EReal) = (m : EReal) := by
  have hchi : m ≤ chiR := le_trans hm muR_lt_chiR.le
  have hlo : -chiR ≤ m := by linarith
  unfold clipped
  rw [chi_eq, clo_eq, one_eq, ← EReal.coe_mul, coe_max, coe_min, one_mul, max_eq_right hlo, min_eq_right hchi]

/-- `p / m / 1 · ½ (log1p m − log1p (−m))` on the extended reals, with the clip, for reals `0 < m ≤ μ`. -/
theorem rLog_core (p m : ℝ) (hm0 : 0 < m) (hm : m ≤ muR) :
    Ideal.div (Ideal.div (p : EReal) (m : EReal)) one
        * (half * (Ideal.log1p (clipped (m : EReal)) - Ideal.log1p (-clipped (m : EReal))))
      = ((p / m / 1 * (1 / 2 * (Real.log (1 + m) - Real.log (1 + -m))) : ℝ) : EReal) := by
  have hm1 : m < 1 := lt_of_le_of_lt hm muR_lt_one
  have h1 : (0 : ℝ) < 1 + -m := by linarith
  have h2 : (0 : ℝ) < 1 + m := by linarith
  rw [clipped_coe m hm0 hm, ← EReal.coe_neg, log1p_coe_pos _ h2, log1p_coe_pos _ h1, one_eq, half_eq,
    div_coe_coe _ _ (ne_of_gt hm0), div_coe_coe _ _ one_ne_zero, ← EReal.coe_sub, ← EReal.coe_mul,
    ← EReal.coe_mul]

/-- The row pulled back onto the sphere of radius `μ` when its floored norm exceeds `μ`, as a real row. -/
def projR (x : ι → ℝ) (k : ι) : ℝ := if muR < nR x then x k / nR x * muR else x k

theorem proj_coe (x : ι → ℝ) :
    proj (fun i => ((x i : ℝ) : EReal)) = fun k => ((projR x k : ℝ) : EReal) := by
  funext k
  unfold proj projR
  rw [rnorm_coe, mu_eq]
  by_cases h : muR < nR x
  · rw [if_pos (EReal.coe_lt_coe_iff.mpr h), if_pos h, div_coe_coe _ _ (ne_of_gt (nR_pos x)), ← EReal.coe_mul]
  · rw [if_neg (fun h' => h (EReal.coe_lt_coe_iff.mp h')), if_neg h]

/-- The floored norm of the pulled-back row is `min n μ`: above `μ` the row has norm `√s = n` (as `ε < μ`), the
    scaled row `x / n · μ` has sum of squares `(μ / n)² · s` and norm `μ / n · √s = μ`. -/
theorem nR_projR (x : ι → ℝ) : nR (projR x) = mR x := by
  unfold mR
  by_cases h : muR < nR x
  · have hs : nR x = Real.sqrt (∑ k, x k * x k) := by
      unfold nR at h ⊢
      apply max_eq_left
      by_contra hc
      rw [max_eq_right (not_le.mp hc).le] at h
      exact absurd h (not_lt.mpr epsR_lt_muR.le)
    have hn := nR_pos x
    have hp : projR x = fun k => x k / nR x * muR := by funext k; unfold projR; rw [if_pos h]
    have hsum : ∑ k, projR x k * projR x k = (muR / nR x) * (muR / nR x) * ∑ k, x k * x k := by
      rw [hp, Finset.mul_sum]; apply Finset.sum_congr rfl; intro k _; ring
    have hsqrt : Real.sqrt (∑ k, projR x k * projR x k) = muR := by
      rw [hsum, Real.sqrt_mul (mul_self_nonneg _), Real.sqrt_mul_self (div_nonneg muR_pos.le hn.le), ← hs]
      field_simp
    rw [min_eq_right h.le]
    unfold nR
    rw [hsqrt, max_eq_left epsR_lt_muR.le]
  · replace h := not_lt.mp h
    have hp : projR x = x := by funext k; unfold projR; rw [if_neg (not_lt.mpr h)]
    rw [hp, min_eq_left h]

/-- The value of the second tangent map on a real row, as a real. -/
def rLogR (x : ι → ℝ) (k : ι) : ℝ :=
  projR x k / mR x / 1 * (1 / 2 * (Real.log (1 + mR x) - Real.log (1 + -mR x)))

theorem rLog_coe (x : ι → ℝ) (k : ι) :
    rLog (fun i => ((x i : ℝ) : EReal)) k = ((rLogR x k : ℝ) : EReal) := by
  unfold rLog
  rw [proj_coe, rnorm_coe, nR_projR]
  exact rLog_core (projR x k) (mR x) (mR_pos x) (mR_le_muR x)

/-! ### The two real values agree -/

theorem kLogR_eq_rLogR (x : ι → ℝ) (k : ι) : kLogR x k = rLogR x k := by
  have hm0 := mR_pos x
  have hm1 := mR_lt_one x
  have hn := nR_pos x
  have hmu := muR_pos
  have h1 : (0 : ℝ) < 1 - mR x := by linarith
  have h2 : (0 : ℝ) < 1 + mR x := by linarith
  unfold kLogR rLogR
  rw [Real.log_div (ne_of_gt h2) (ne_of_gt h1), ← sub_eq_add_neg]
  by_cases h : muR < nR x
  · have hm : mR x = muR := min_eq_right h.le
    have hp : projR x k = x k / nR x * muR := by unfold projR; rw [if_pos h]
    rw [hp, hm]
    field_simp
  · replace h := not_lt.mp h
    have hm : mR x = nR x := min_eq_left h
    have hp : projR x k = x k := by unfold projR; rw [if_neg (not_lt.mpr h)]
    rw [hp, hm]
    field_simp

/-! ### The statements -/

/-- The first tangent map sends a row of reals to reals. -/
theorem kLog_real (x : ι → ℝ) (k : ι) :
    ∃ r : ℝ, Cert.RowMaps.kLog (fun i => ((x i : ℝ) : EReal)) k = ((r : ℝ) : EReal) :=
  ⟨kLogR x k, kLog_coe x k⟩

/-- The two tangent maps agree on rows of reals. -/
theorem kLog_eq_rLog (x : ι → ℝ) (k : ι) :
    Cert.RowMaps.kLog (fun i => ((x i : ℝ) : EReal)) k = Cert.RowMaps.rLog (fun i => ((x i : ℝ) : EReal)) k := by
  rw [kLog_coe, rLog_coe, kLogR_eq_rLogR]

end Cert.RowMaps.LogRow

end
-- ==== Proof.ExpRow.lean ====
/-
  The exponential map, row by row: on a row of real numbers the kernel's form and the reference's form agree.

  Write `s = ∑ uₖ²`, `n = max (√s) ε` (so `n ≥ ε > 0`) and `T = tanh n`, so `0 < T < 1`. The kernel returns
  `uⱼ · (min T μ / n)`. The reference forms `γⱼ = T · uⱼ / n`, whose floored norm is `g = max ((T / n) · √s) ε`
  because `∑ γₖ² = (T / n)² · s` and `T / n ≥ 0`; it returns `γⱼ / g · μ` when `μ < g` and `γⱼ` otherwise.

  Since `√s ≤ n`, always `(T / n) · √s ≤ T`, hence `g ≤ max T ε`.
  * If `T ≤ μ`, then `g ≤ μ` (as `ε < μ`), so the reference returns `γⱼ = T · uⱼ / n`, and `min T μ = T`: both sides agree.
  * If `μ < T`, then `√s ≥ ε` (otherwise `n = ε` and `T = tanh ε ≤ μ`), so `n = √s`, `(T / n) · √s = T` and `g = T > μ`;
    the reference returns `(T · uⱼ / n) / T · μ = uⱼ · μ / n`, and `min T μ = μ`: both sides agree.

  The bound `tanh ε ≤ μ` comes from `tanh x = (eˣ − e⁻ˣ) / (eˣ + e⁻ˣ)` with `1 ≤ e^ε ≤ 1 / (1 − ε) ≤ 4/3`.
-/
import proofs.«152415_g58454504898751_cont_sun_c4_404_16_alg».proof.Proof.Consts
import proofs.«152415_g58454504898751_cont_sun_c4_404_16_alg».proof.Proof.RowMaps

noncomputable section

namespace Cert.RowMaps.ExpRow

open Idealize.ShloMosaic Cert.Consts

variable {ι : Type} [Fintype ι]

/-! ### Coercions -/

/-- The coercion of a finite sum of reals is the sum of the coercions. -/
theorem coe_sum (f : ι → ℝ) : ((∑ k, f k : ℝ) : EReal) = ∑ k, ((f k : ℝ) : EReal) := by
  classical
  refine Finset.induction_on (Finset.univ : Finset ι) (by simp) ?_
  intro a s ha ih
  rw [Finset.sum_insert ha, Finset.sum_insert ha, EReal.coe_add, ih]

theorem coe_max (a b : ℝ) : max ((a : ℝ) : EReal) ((b : ℝ) : EReal) = ((max a b : ℝ) : EReal) :=
  (EReal.coe_strictMono.monotone.map_max).symm

theorem coe_min (a b : ℝ) : min ((a : ℝ) : EReal) ((b : ℝ) : EReal) = ((min a b : ℝ) : EReal) :=
  (EReal.coe_strictMono.monotone.map_min).symm

/-! ### The real counterparts -/

/-- The floored Euclidean norm of a real row. -/
def nR (u : ι → ℝ) : ℝ := max (Real.sqrt (∑ k, u k * u k)) epsR

/-- `γ` for a real row. -/
def gR (u : ι → ℝ) (j : ι) : ℝ := Real.tanh (nR u) * u j / nR u

theorem sumsq_nonneg (u : ι → ℝ) : 0 ≤ ∑ k, u k * u k :=
  Finset.sum_nonneg (fun k _ => mul_self_nonneg (u k))

theorem eps_le_nR (u : ι → ℝ) : epsR ≤ nR u := le_max_right _ _

theorem nR_pos (u : ι → ℝ) : 0 < nR u := lt_of_lt_of_le epsR_pos (eps_le_nR u)

theorem rnorm_coe (u : ι → ℝ) : rnorm (fun i => ((u i : ℝ) : EReal)) = ((nR u : ℝ) : EReal) := by
  have hs : (∑ k, ((u k : ℝ) : EReal) * ((u k : ℝ) : EReal)) = ((∑ k, u k * u k : ℝ) : EReal) := by
    rw [coe_sum]; exact Finset.sum_congr rfl (fun k _ => (EReal.coe_mul _ _).symm)
  show max (Ideal.sqrt (∑ k, ((u k : ℝ) : EReal) * ((u k : ℝ) : EReal))) eps = _
  rw [hs, Ideal.sqrt_coe, if_neg (not_lt.2 (sumsq_nonneg u)),
    show eps = ((epsR : ℝ) : EReal) from ofBits_eps, coe_max]
  rfl

theorem kExp_coe (u : ι → ℝ) (j : ι) :
    kExp (fun i => ((u i : ℝ) : EReal)) j
      = ((u j * (min (Real.tanh (nR u)) muR / nR u) : ℝ) : EReal) := by
  show ((u j : ℝ) : EReal) * Ideal.div (min (Ideal.tanh (rnorm fun i => ((u i : ℝ) : EReal))) mu)
      (rnorm fun i => ((u i : ℝ) : EReal)) = _
  rw [rnorm_coe, Ideal.tanh_coe, show mu = ((muR : ℝ) : EReal) from ofBits_mu, coe_min,
    Ideal.div_coe (nR_pos u).ne', ← EReal.coe_mul, ← EReal.coe_mul, mul_one_div]

theorem gam_coe (u : ι → ℝ) (j : ι) :
    gam (fun i => ((u i : ℝ) : EReal)) j = ((gR u j : ℝ) : EReal) := by
  show Ideal.div (Ideal.tanh (one * rnorm fun i => ((u i : ℝ) : EReal)) * ((u j : ℝ) : EReal))
      (one * rnorm fun i => ((u i : ℝ) : EReal)) = _
  rw [rnorm_coe, show one = ((1 : ℝ) : EReal) from ofBits_one, ← EReal.coe_mul, one_mul,
    Ideal.tanh_coe, ← EReal.coe_mul, Ideal.div_coe (nR_pos u).ne', ← EReal.coe_mul]
  unfold gR
  rw [mul_one_div]

theorem proj_coe (v : ι → ℝ) (k : ι) :
    proj (fun i => ((v i : ℝ) : EReal)) k
      = ((if muR < nR v then v k / nR v * muR else v k : ℝ) : EReal) := by
  show (if mu < rnorm (fun i => ((v i : ℝ) : EReal))
      then Ideal.div ((v k : ℝ) : EReal) (rnorm fun i => ((v i : ℝ) : EReal)) * mu
      else ((v k : ℝ) : EReal)) = _
  rw [rnorm_coe, show mu = ((muR : ℝ) : EReal) from ofBits_mu]
  by_cases h : muR < nR v
  · rw [if_pos (EReal.coe_lt_coe_iff.2 h), if_pos h, Ideal.div_coe (nR_pos v).ne',
      ← EReal.coe_mul, ← EReal.coe_mul, mul_one_div]
  · rw [if_neg (fun h' => h (EReal.coe_lt_coe_iff.1 h')), if_neg h]

theorem rExp_coe (u : ι → ℝ) (j : ι) :
    rExp (fun i => ((u i : ℝ) : EReal)) j
      = ((if muR < nR (gR u) then gR u j / nR (gR u) * muR else gR u j : ℝ) : EReal) := by
  have hg : gam (fun i => ((u i : ℝ) : EReal)) = fun i => ((gR u i : ℝ) : EReal) :=
    funext (gam_coe u)
  show proj (gam fun i => ((u i : ℝ) : EReal)) j = _
  rw [hg, proj_coe]

/-! ### The hyperbolic tangent -/

theorem tanh_pos {x : ℝ} (hx : 0 < x) : 0 < Real.tanh x := by
  rw [Real.tanh_eq_sinh_div_cosh]
  exact div_pos (Real.sinh_pos_iff.2 hx) (Real.cosh_pos x)

theorem epsR_lt_quarter : epsR < 1 / 4 := by unfold epsR; norm_num

theorem half_lt_muR : 1 / 2 < muR := by unfold muR; norm_num

/-- `tanh ε ≤ μ`: with `a = e^ε`, `1 ≤ a ≤ 4/3`, so `a − a⁻¹ ≤ 7/12 ≤ 7/8 ≤ μ (a + a⁻¹)`. -/
theorem tanh_eps_le_mu : Real.tanh epsR ≤ muR := by
  have h0 : 0 ≤ epsR := epsR_pos.le
  have h4 : epsR < 1 / 4 := epsR_lt_quarter
  have ha1 : 1 ≤ Real.exp epsR := Real.one_le_exp h0
  have ha2 : Real.exp epsR ≤ 4 / 3 := by
    have hb := Real.exp_bound_div_one_sub_of_interval h0 (by linarith : epsR < 1)
    refine hb.trans ?_
    rw [div_le_iff₀ (by linarith : (0 : ℝ) < 1 - epsR)]
    linarith
  have hapos : 0 < Real.exp epsR := Real.exp_pos _
  have hi1 : (Real.exp epsR)⁻¹ ≤ 1 := inv_le_one_of_one_le₀ ha1
  have hi2 : 3 / 4 ≤ (Real.exp epsR)⁻¹ := by
    rw [le_inv_comm₀ (by norm_num) hapos]
    norm_num
    exact ha2
  rw [Real.tanh_eq, Real.exp_neg, div_le_iff₀ (by positivity)]
  have hsum : 7 / 4 ≤ Real.exp epsR + (Real.exp epsR)⁻¹ := by linarith
  have hprod : (1 / 2 : ℝ) * (7 / 4) ≤ muR * (Real.exp epsR + (Real.exp epsR)⁻¹) :=
    mul_le_mul half_lt_muR.le hsum (by norm_num) muR_pos.le
  linarith

/-! ### The identity over the reals -/

theorem sumsq_gR (u : ι → ℝ) :
    ∑ k, gR u k * gR u k = (Real.tanh (nR u) / nR u) ^ 2 * ∑ k, u k * u k := by
  rw [Finset.mul_sum]
  refine Finset.sum_congr rfl (fun k _ => ?_)
  unfold gR
  ring

theorem sqrt_sumsq_gR (u : ι → ℝ) :
    Real.sqrt (∑ k, gR u k * gR u k)
      = Real.tanh (nR u) / nR u * Real.sqrt (∑ k, u k * u k) := by
  rw [sumsq_gR, Real.sqrt_mul (sq_nonneg _),
    Real.sqrt_sq (div_nonneg (tanh_pos (nR_pos u)).le (nR_pos u).le)]

theorem nR_gR (u : ι → ℝ) :
    nR (gR u) = max (Real.tanh (nR u) / nR u * Real.sqrt (∑ k, u k * u k)) epsR := by
  show max (Real.sqrt (∑ k, gR u k * gR u k)) epsR = _
  rw [sqrt_sumsq_gR]

theorem real_identity (u : ι → ℝ) (j : ι) :
    u j * (min (Real.tanh (nR u)) muR / nR u)
      = if muR < nR (gR u) then gR u j / nR (gR u) * muR else gR u j := by
  have hn : 0 < nR u := nR_pos u
  have hT : 0 < Real.tanh (nR u) := tanh_pos hn
  have hsn : Real.sqrt (∑ k, u k * u k) ≤ nR u := le_max_left _ _
  have hle : Real.tanh (nR u) / nR u * Real.sqrt (∑ k, u k * u k) ≤ Real.tanh (nR u) := by
    rw [div_mul_eq_mul_div, div_le_iff₀ hn]
    exact mul_le_mul_of_nonneg_left hsn hT.le
  by_cases hc : Real.tanh (nR u) ≤ muR
  · have hno : ¬ muR < nR (gR u) := by
      rw [nR_gR, not_lt]
      exact max_le (hle.trans hc) epsR_lt_muR.le
    rw [if_neg hno, min_eq_left hc]
    unfold gR
    ring
  · have hc' : muR < Real.tanh (nR u) := not_le.1 hc
    have hes : epsR ≤ Real.sqrt (∑ k, u k * u k) := by
      by_contra h
      have hn' : nR u = epsR := max_eq_right (not_le.1 h).le
      rw [hn'] at hc'
      exact absurd tanh_eps_le_mu (not_le.2 hc')
    have hn' : Real.sqrt (∑ k, u k * u k) = nR u := (max_eq_left hes).symm
    have hg : nR (gR u) = Real.tanh (nR u) := by
      rw [nR_gR, hn', div_mul_cancel₀ _ hn.ne']
      exact max_eq_left (epsR_lt_muR.le.trans hc'.le)
    rw [hg, if_pos hc', min_eq_right hc'.le]
    unfold gR
    field_simp

/-! ### The identity over the extended reals -/

/-- On a row of real numbers the kernel's exponential map and the reference's agree. -/
theorem kExp_eq_rExp (u : ι → ℝ) (j : ι) :
    Cert.RowMaps.kExp (fun i => ((u i : ℝ) : EReal)) j
      = Cert.RowMaps.rExp (fun i => ((u i : ℝ) : EReal)) j := by
  rw [kExp_coe, rExp_coe, real_identity]

end Cert.RowMaps.ExpRow

end
-- ==== Proof.Linear.lean ====
import Idealize.ShloMosaic.PureOps.Ideal

/-!
# A matrix product distributes over an affine map, for real entries

On the extended reals multiplication does not distribute over addition in general
(for instance `⊤ * (1 + (-1)) = 0` while `⊤ * 1 + ⊤ * (-1) = ⊤ + ⊥ = ⊥`), so the
identity `a · (t · w + b) = (a · t) · w + (a · 1) · b` cannot be taken for granted in
`EReal`.  When every entry is the coercion of a real number it does hold: each side is
then the coercion of the corresponding real expression, and the identity is an equation
between finite sums of real numbers.
-/

namespace Cert.Linear

open Finset

/-- The coercion `ℝ → EReal` commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert i s hi ih => rw [Finset.sum_insert hi, Finset.sum_insert hi, EReal.coe_add, ih]

variable {κ γ : Type} [Fintype κ] [Fintype γ]

/-- The identity over the reals: expand both sides into the double sum
`∑ₖ ∑_c aₖ t_{k c} w_c` plus `∑ₖ aₖ b`, and exchange the order of summation. -/
theorem sum_mul_affine_real_field (a : κ → ℝ) (t : κ → γ → ℝ) (w : γ → ℝ) (b : ℝ) :
    ∑ k, a k * (∑ c, t k c * w c + b)
      = (∑ c, (∑ k, a k * t k c) * w c) + (∑ k, a k * 1) * b := by
  simp only [mul_add, Finset.sum_add_distrib, Finset.mul_sum, Finset.sum_mul, mul_one,
    mul_assoc]
  rw [Finset.sum_comm]

/-- The left-hand side is the coercion of the real left-hand side. -/
theorem lhs_coe (a : κ → ℝ) (t : κ → γ → ℝ) (w : γ → ℝ) (b : ℝ) :
    ∑ k, ((a k : ℝ) : EReal) *
        (∑ c, ((t k c : ℝ) : EReal) * ((w c : ℝ) : EReal) + ((b : ℝ) : EReal))
      = ((∑ k, a k * (∑ c, t k c * w c + b) : ℝ) : EReal) := by
  rw [coe_sum]
  refine Finset.sum_congr rfl (fun k _ => ?_)
  rw [EReal.coe_mul, EReal.coe_add, coe_sum]
  simp only [EReal.coe_mul]

/-- The right-hand side is the coercion of the real right-hand side. -/
theorem rhs_coe (a : κ → ℝ) (t : κ → γ → ℝ) (w : γ → ℝ) (b : ℝ) :
    (∑ c, (∑ k, ((a k : ℝ) : EReal) * ((t k c : ℝ) : EReal)) * ((w c : ℝ) : EReal))
        + (∑ k, ((a k : ℝ) : EReal) * ((1 : ℝ) : EReal)) * ((b : ℝ) : EReal)
      = (((∑ c, (∑ k, a k * t k c) * w c) + (∑ k, a k * 1) * b : ℝ) : EReal) := by
  rw [EReal.coe_add, EReal.coe_mul, coe_sum, coe_sum]
  simp only [EReal.coe_mul, coe_sum]

/-- `∑ₖ aₖ · (∑_c t_{k c} · w_c + b) = ∑_c (∑ₖ aₖ · t_{k c}) · w_c + (∑ₖ aₖ · 1) · b`. -/
theorem sum_mul_affine (a : κ → ℝ) (t : κ → γ → ℝ) (w : γ → ℝ) (b : ℝ) :
    ∑ k, ((a k : ℝ) : EReal) *
        (∑ c, ((t k c : ℝ) : EReal) * ((w c : ℝ) : EReal) + ((b : ℝ) : EReal))
      = (∑ c, (∑ k, ((a k : ℝ) : EReal) * ((t k c : ℝ) : EReal)) * ((w c : ℝ) : EReal))
        + (∑ k, ((a k : ℝ) : EReal) * ((1 : ℝ) : EReal)) * ((b : ℝ) : EReal) := by
  rw [lhs_coe, rhs_coe, sum_mul_affine_real_field]

/-- and the value is a real number. -/
theorem sum_mul_affine_real (a : κ → ℝ) (t : κ → γ → ℝ) (w : γ → ℝ) (b : ℝ) :
    ∃ r : ℝ,
      (∑ c, (∑ k, ((a k : ℝ) : EReal) * ((t k c : ℝ) : EReal)) * ((w c : ℝ) : EReal))
        + (∑ k, ((a k : ℝ) : EReal) * ((1 : ℝ) : EReal)) * ((b : ℝ) : EReal)
        = ((r : ℝ) : EReal) :=
  ⟨_, rhs_coe a t w b⟩

end Cert.Linear
-- ==== Proof.Bridge.lean ====
/-
  On arrays of real numbers the two arrangements of the layer give the same result, `GR = G`.

  Write `x, a, w, β` for the real arrays whose coercions are `X, Adj, Wt, b`. (1) On every row of `X` the two tangent
  maps agree and take real values `t k c`. (2) With every entry real, the matrix product distributes over the affine map:
      ∑_k a(i,k) · (∑_c t(k,c) · w(c,j) + β_j) = ∑_c (∑_k a(i,k) · t(k,c)) · w(c,j) + (∑_k a(i,k) · 1) · β_j,
  so the aggregated rows of the two arrangements are equal, entry by entry. (3) Each aggregated entry is a real `u i j`.
  (4) On the real row `u i` the two exponential maps agree.
-/
import proofs.«152415_g58454504898751_cont_sun_c4_404_16_alg».proof.Proof.Spec
import proofs.«152415_g58454504898751_cont_sun_c4_404_16_alg».proof.Proof.LogRow
import proofs.«152415_g58454504898751_cont_sun_c4_404_16_alg».proof.Proof.ExpRow
import proofs.«152415_g58454504898751_cont_sun_c4_404_16_alg».proof.Proof.Linear
import proofs.«152415_g58454504898751_cont_sun_c4_404_16_alg».proof.Proof.Consts

noncomputable section

namespace Cert.Bridge

open Idealize.ShloMosaic Idealize.ShloMosaic.ValueIdx Cert.Spec Cert.RowMaps

/-! ### (1) The tangent maps on a row of reals -/

/-- On a row of reals the second tangent map is the first. -/
theorem rLog_row (X : (⟨2, ![10000, 128]⟩ : Shape).Idx → EReal) (x : (⟨2, ![10000, 128]⟩ : Shape).Idx → ℝ)
    (hX : ∀ i, X i = ((x i : ℝ) : EReal)) (k : Fin 10000) (c : Fin 128) :
    rLog (fun k' : Fin 128 => X (ix2 k k')) c = tangent X k c := by
  have hrow : (fun k' : Fin 128 => X (ix2 k k')) = fun k' : Fin 128 => ((x (ix2 k k') : ℝ) : EReal) :=
    funext (fun k' => hX (ix2 k k'))
  unfold tangent
  rw [hrow]
  exact (LogRow.kLog_eq_rLog (fun k' : Fin 128 => x (ix2 k k')) c).symm

/-- The first tangent map sends a row of reals to reals. -/
theorem tangent_real (X : (⟨2, ![10000, 128]⟩ : Shape).Idx → EReal) (x : (⟨2, ![10000, 128]⟩ : Shape).Idx → ℝ)
    (hX : ∀ i, X i = ((x i : ℝ) : EReal)) (k : Fin 10000) (c : Fin 128) :
    ∃ r : ℝ, tangent X k c = ((r : ℝ) : EReal) := by
  have hrow : (fun k' : Fin 128 => X (ix2 k k')) = fun k' : Fin 128 => ((x (ix2 k k') : ℝ) : EReal) :=
    funext (fun k' => hX (ix2 k k'))
  unfold tangent
  rw [hrow]
  exact LogRow.kLog_real (fun k' : Fin 128 => x (ix2 k k')) c

/-! ### (2), (3) The aggregated rows -/

/-- The first arrangement's aggregated entry, once every entry is written as the coercion of a real. -/
theorem accK_coe (X : (⟨2, ![10000, 128]⟩ : Shape).Idx → EReal) (Adj : (⟨2, ![10000, 10000]⟩ : Shape).Idx → EReal)
    (Wt : (⟨2, ![128, 128]⟩ : Shape).Idx → EReal) (b : Fin 128 → EReal)
    (a : (⟨2, ![10000, 10000]⟩ : Shape).Idx → ℝ) (w : (⟨2, ![128, 128]⟩ : Shape).Idx → ℝ) (β : Fin 128 → ℝ)
    (t : Fin 10000 → Fin 128 → ℝ)
    (hA : ∀ i, Adj i = ((a i : ℝ) : EReal)) (hW : ∀ i, Wt i = ((w i : ℝ) : EReal))
    (hb : ∀ j, b j = ((β j : ℝ) : EReal)) (ht : ∀ k c, tangent X k c = ((t k c : ℝ) : EReal))
    (i : Fin 10000) (j : Fin 128) :
    accK X Adj Wt b i j
      = (∑ c : Fin 128, (∑ k : Fin 10000, ((a (ix2 i k) : ℝ) : EReal) * ((t k c : ℝ) : EReal)) * ((w (ix2 c j) : ℝ) : EReal))
        + (∑ k : Fin 10000, ((a (ix2 i k) : ℝ) : EReal) * ((1 : ℝ) : EReal)) * ((β j : ℝ) : EReal) := by
  unfold accK
  simp only [Cert.Consts.ofBits_one_bf16, hb, hW, hA, ht]

/-- The second arrangement's aggregated entry, once every entry is written as the coercion of a real. -/
theorem accR_coe (X : (⟨2, ![10000, 128]⟩ : Shape).Idx → EReal) (Adj : (⟨2, ![10000, 10000]⟩ : Shape).Idx → EReal)
    (Wt : (⟨2, ![128, 128]⟩ : Shape).Idx → EReal) (b : Fin 128 → EReal)
    (x : (⟨2, ![10000, 128]⟩ : Shape).Idx → ℝ)
    (a : (⟨2, ![10000, 10000]⟩ : Shape).Idx → ℝ) (w : (⟨2, ![128, 128]⟩ : Shape).Idx → ℝ) (β : Fin 128 → ℝ)
    (t : Fin 10000 → Fin 128 → ℝ)
    (hX : ∀ i, X i = ((x i : ℝ) : EReal))
    (hA : ∀ i, Adj i = ((a i : ℝ) : EReal)) (hW : ∀ i, Wt i = ((w i : ℝ) : EReal))
    (hb : ∀ j, b j = ((β j : ℝ) : EReal)) (ht : ∀ k c, tangent X k c = ((t k c : ℝ) : EReal))
    (i : Fin 10000) (j : Fin 128) :
    accR X Adj Wt b i j
      = ∑ k : Fin 10000, ((a (ix2 i k) : ℝ) : EReal) *
          (∑ c : Fin 128, ((t k c : ℝ) : EReal) * ((w (ix2 c j) : ℝ) : EReal) + ((β j : ℝ) : EReal)) := by
  unfold accR
  simp only [rLog_row X x hX, ht, hA, hW, hb]

/-- (2) The aggregated rows of the two arrangements are equal. -/
theorem accR_eq_accK (X : (⟨2, ![10000, 128]⟩ : Shape).Idx → EReal) (Adj : (⟨2, ![10000, 10000]⟩ : Shape).Idx → EReal)
    (Wt : (⟨2, ![128, 128]⟩ : Shape).Idx → EReal) (b : Fin 128 → EReal)
    (x : (⟨2, ![10000, 128]⟩ : Shape).Idx → ℝ)
    (a : (⟨2, ![10000, 10000]⟩ : Shape).Idx → ℝ) (w : (⟨2, ![128, 128]⟩ : Shape).Idx → ℝ) (β : Fin 128 → ℝ)
    (t : Fin 10000 → Fin 128 → ℝ)
    (hX : ∀ i, X i = ((x i : ℝ) : EReal))
    (hA : ∀ i, Adj i = ((a i : ℝ) : EReal)) (hW : ∀ i, Wt i = ((w i : ℝ) : EReal))
    (hb : ∀ j, b j = ((β j : ℝ) : EReal)) (ht : ∀ k c, tangent X k c = ((t k c : ℝ) : EReal))
    (i : Fin 10000) (j : Fin 128) :
    accR X Adj Wt b i j = accK X Adj Wt b i j := by
  rw [accR_coe X Adj Wt b x a w β t hX hA hW hb ht i j, accK_coe X Adj Wt b a w β t hA hW hb ht i j]
  exact Cert.Linear.sum_mul_affine (fun k : Fin 10000 => a (ix2 i k)) t (fun c : Fin 128 => w (ix2 c j)) (β j)

/-- (3) Each aggregated entry is a real. -/
theorem accK_real (X : (⟨2, ![10000, 128]⟩ : Shape).Idx → EReal) (Adj : (⟨2, ![10000, 10000]⟩ : Shape).Idx → EReal)
    (Wt : (⟨2, ![128, 128]⟩ : Shape).Idx → EReal) (b : Fin 128 → EReal)
    (a : (⟨2, ![10000, 10000]⟩ : Shape).Idx → ℝ) (w : (⟨2, ![128, 128]⟩ : Shape).Idx → ℝ) (β : Fin 128 → ℝ)
    (t : Fin 10000 → Fin 128 → ℝ)
    (hA : ∀ i, Adj i = ((a i : ℝ) : EReal)) (hW : ∀ i, Wt i = ((w i : ℝ) : EReal))
    (hb : ∀ j, b j = ((β j : ℝ) : EReal)) (ht : ∀ k c, tangent X k c = ((t k c : ℝ) : EReal))
    (i : Fin 10000) (j : Fin 128) :
    ∃ r : ℝ, accK X Adj Wt b i j = ((r : ℝ) : EReal) := by
  rw [accK_coe X Adj Wt b a w β t hA hW hb ht i j]
  exact Cert.Linear.sum_mul_affine_real (fun k : Fin 10000 => a (ix2 i k)) t (fun c : Fin 128 => w (ix2 c j)) (β j)

/-! ### (4) The layer's result -/

theorem GR_eq_G (X : (⟨2, ![10000, 128]⟩ : Shape).Idx → EReal) (Adj : (⟨2, ![10000, 10000]⟩ : Shape).Idx → EReal)
    (Wt : (⟨2, ![128, 128]⟩ : Shape).Idx → EReal) (b : Fin 128 → EReal)
    (hX : ∀ i, ∃ r : ℝ, X i = ((r : ℝ) : EReal)) (hA : ∀ i, ∃ r : ℝ, Adj i = ((r : ℝ) : EReal))
    (hW : ∀ i, ∃ r : ℝ, Wt i = ((r : ℝ) : EReal)) (hb : ∀ j, ∃ r : ℝ, b j = ((r : ℝ) : EReal)) :
    GR X Adj Wt b = G X Adj Wt b := by
  choose x hx using hX
  choose a ha using hA
  choose w hw using hW
  choose β hβ using hb
  have hT : ∀ (k : Fin 10000) (c : Fin 128), ∃ r : ℝ, tangent X k c = ((r : ℝ) : EReal) :=
    fun k c => tangent_real X x hx k c
  choose t ht using hT
  have hU : ∀ (i : Fin 10000) (j : Fin 128), ∃ r : ℝ, accK X Adj Wt b i j = ((r : ℝ) : EReal) :=
    fun i j => accK_real X Adj Wt b a w β t ha hw hβ ht i j
  choose u hu using hU
  funext y
  have hrowK : (fun j' : Fin 128 => accK X Adj Wt b (y 0) j') = fun j' : Fin 128 => ((u (y 0) j' : ℝ) : EReal) :=
    funext (fun j' => hu (y 0) j')
  have hrowR : (fun j' : Fin 128 => accR X Adj Wt b (y 0) j') = fun j' : Fin 128 => ((u (y 0) j' : ℝ) : EReal) :=
    funext (fun j' => (accR_eq_accK X Adj Wt b x a w β t hx ha hw hβ ht (y 0) j').trans (hu (y 0) j'))
  show rExp (fun j' : Fin 128 => accR X Adj Wt b (y 0) j') (y 1)
      = kExp (fun j' : Fin 128 => accK X Adj Wt b (y 0) j') (y 1)
  rw [hrowK, hrowR]
  exact (Cert.RowMaps.ExpRow.kExp_eq_rExp (u (y 0)) (y 1)).symm

end Cert.Bridge

end
-- ==== Proof.Finite.lean ====
import proofs.«152415_g58454504898751_cont_sun_c4_404_16_alg».proof.Proof.Gen.Pre_finite_inputs
import Idealize.ShloMosaic.Lib.ReduceAll
import Idealize.ShloMosaic.PureOps.Ideal

/-!
# The finiteness precondition says every entry is a real number

The precondition is the conjunction, over the four argument arrays, of
"every entry `x` satisfies `|x| < +∞`", where on the extended reals `|x|` is `max x (-x)`
and `+∞` is the value `⊤` of the bit pattern `0x7F800000`.  An extended real is `⊥`, `⊤`
or the coercion of a real; at `⊥` and at `⊤` the absolute value is `⊤`, which is not
below `⊤`.  So each entry is the coercion of a real number.
-/

namespace Cert.Finite

open Idealize.ShloMosaic

/-- The single-precision pattern with all exponent bits set, sign and fraction zero, is `+∞`. -/
theorem inf_bits : Ideal.ofBits .f32 0x7F800000#32 = (⊤ : EReal) := by
  simp [Ideal.ofBits, Ideal.ieee]

/-- An extended real whose absolute value `max x (-x)` is below `⊤` is a real number:
at `x = ⊥` the maximum is `-⊥ = ⊤`, at `x = ⊤` it is `⊤`. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The same, read off the comparison word: if "`|x| < +∞`" evaluates to the bit `1`,
then `x` is a real number. -/
theorem real_of_cmp (x : EReal)
    (h : Ideal.cmp .olt (max x (-x)) (Ideal.ofBits .f32 0x7F800000#32) = 1#1) :
    ∃ r : ℝ, x = ((r : ℝ) : EReal) := by
  rw [inf_bits] at h
  refine real_of_abs_lt_top x ?_
  by_contra hn
  simp [Ideal.cmp, hn] at h

/-- The rank-0 shape has exactly one index. -/
theorem subsingleton_scalarIdx : Subsingleton (⟨0, ![]⟩ : Shape).Idx :=
  ⟨fun _ _ => funext fun d => d.elim0⟩

/-- One array: if the conjunction over all entries of "`|v i| < +∞`" is `1`, every entry
of `v` is a real number. -/
theorem real_of_all {s u : Shape} {axes : List (Fin s.rank)} (v : FVec Ideal s .f32)
    (bc : (⟨0, ![]⟩ : Shape).BroadcastsInDim s (![] : Fin 0 → Fin s.rank))
    (hr : s.ReducesTo axes (⟨0, ![]⟩ : Shape)) (hu : 0 < u.numel) (init : IVec u 1)
    (j : (⟨0, ![]⟩ : Shape).Idx)
    (e : Host.reduce IntOp.andi
          (cmpf .olt (Host.absf v)
            (broadcastInDim s ![] bc (constant (⟨0, ![]⟩ : Shape) .f32 0x7F800000#32)))
          init hr hu j = 1#1) :
    ∀ i, ∃ r : ℝ, v i = ((r : ℝ) : EReal) := by
  intro i
  haveI := subsingleton_scalarIdx
  have hi := Host.reduce_andi_all _ _ hr hu j e i
  exact real_of_cmp (v i) hi

open Cert.Pre_finite_inputs in
/-- The precondition holds exactly when all four conjuncts do; each conjunct makes the
entries of one argument real numbers. -/
theorem real_of_pre [Cert.Pre_finite_inputs.Facts] (x : FVec Ideal S10000x128 .f32)
    (a : FVec Ideal S10000x10000 .f32) (w : FVec Ideal S128x128 .f32) (b : FVec Ideal S128 .f32)
    (h : Cert.Pre_finite_inputs.fn (F := Ideal) x a w b = fun _ => 1#1) :
    (∀ i, ∃ r : ℝ, x i = ((r : ℝ) : EReal)) ∧ (∀ i, ∃ r : ℝ, a i = ((r : ℝ) : EReal)) ∧
      (∀ i, ∃ r : ℝ, w i = ((r : ℝ) : EReal)) ∧ (∀ i, ∃ r : ℝ, b i = ((r : ℝ) : EReal)) := by
  have h0 := congrFun h (fun d => d.elim0)
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  exact ⟨real_of_all x _ _ _ _ _ h1, real_of_all a _ _ _ _ _ h2,
    real_of_all w _ _ _ _ _ h3, real_of_all b _ _ _ _ _ h4⟩

end Cert.Finite
-- ==== Proof.lean ====
/-
  A hyperbolic graph-convolution layer on the Poincaré ball of curvature 1: the node features are mapped into the tangent
  space at the origin, passed through a linear layer, aggregated over the graph by the adjacency matrix, and mapped back
  onto the ball. The kernel and the reference compute it in two arrangements, and this certificate proves that over the
  extended reals, on finite inputs, they are ONE function of the four argument arrays (Proof/Spec.lean: `G` and `GR`).

  Three things differ between the two programs, and each is an identity of real numbers:

  * The tangent map. With `n = max(‖x‖, ε)` the reference first pulls a row of norm above `μ` back onto the sphere of
    radius `μ`, then scales by `artanh` of the new norm (clipped to `[−χ, χ]`) over the new norm; the kernel scales the
    row once, by `artanh(min(n, μ)) / n`. The pulled-back row has norm exactly `μ`, the clip never binds because
    `0 < min(n, μ) ≤ μ < χ`, and `½(log(1+z) − log(1−z)) = ½ log((1+z)/(1−z))` for `|z| < 1` (Proof/LogRow.lean).
  * The linear layer and the aggregation. The reference computes `Adj · (T · W + 1 bᵀ)`; the kernel computes
    `(Adj · T) · W + (Adj · 1) bᵀ`, getting the row sums `Adj · 1` from a column of ones appended to `T`. On the extended
    reals a product distributes over a sum only off the infinities, which is where the precondition is used: every entry of
    the inputs is a real number, hence so is every entry of `T` (Proof/Linear.lean, Proof/Finite.lean).
  * The exponential map. With `n = max(‖u‖, ε)` the reference forms `γ = tanh(n) · u / n` and pulls `γ` back onto the
    sphere of radius `μ` when `max(‖γ‖, ε) > μ`; the kernel scales `u` once, by `min(tanh n, μ) / n`. For `‖u‖ ≥ ε` one has
    `‖γ‖ = tanh ‖u‖`, so both pull back exactly when `tanh ‖u‖ > μ`, to `μ · u / ‖u‖`; for `‖u‖ < ε` one has `‖γ‖ ≤ tanh ε ≤ μ` and
    neither pulls back (Proof/ExpRow.lean).

  The kernel side: its grid has 25 points of 400 output rows; a scratch array holding the tangent features and the ones
  column is filled at the first point and carried unchanged through the others, so every point writes back the block of `G`
  it is responsible for, and the blocks tile the output (Proof/KernelPieces.lean, Proof/KernelPayload.lean,
  Proof/KernelValue.lean). The reference side: its straight-line host program is read one operation at a time
  (Proof/RefStages.lean) and its last stage, at an index, is `GR` (Proof/RefIsG.lean). `GR = G` on real arrays is
  Proof/Bridge.lean. The idealization rewrote nothing, so the kernel's idealized text is its own text read on the
  extended reals.
-/
import proofs.«152415_g58454504898751_cont_sun_c4_404_16_alg».proof.Defs
import proofs.«152415_g58454504898751_cont_sun_c4_404_16_alg».proof.Proof.Gen.Kernel
import proofs.«152415_g58454504898751_cont_sun_c4_404_16_alg».proof.Proof.Gen.Kernel.Skeleton
import proofs.«152415_g58454504898751_cont_sun_c4_404_16_alg».proof.Proof.Gen.Kernel.Launch
import proofs.«152415_g58454504898751_cont_sun_c4_404_16_alg».proof.Proof.Gen.Kernel.Points
import proofs.«152415_g58454504898751_cont_sun_c4_404_16_alg».proof.Proof.Gen.Kernel.Frame
import proofs.«152415_g58454504898751_cont_sun_c4_404_16_alg».proof.Proof.Gen.KernelIdeal
import proofs.«152415_g58454504898751_cont_sun_c4_404_16_alg».proof.Proof.Gen.KernelIdeal.Skeleton
import proofs.«152415_g58454504898751_cont_sun_c4_404_16_alg».proof.Proof.Gen.KernelIdeal.Launch
import proofs.«152415_g58454504898751_cont_sun_c4_404_16_alg».proof.Proof.Gen.KernelIdeal.Points
import proofs.«152415_g58454504898751_cont_sun_c4_404_16_alg».proof.Proof.Gen.KernelIdeal.Frame
import proofs.«152415_g58454504898751_cont_sun_c4_404_16_alg».proof.Proof.Gen.ReferenceIdeal
import proofs.«152415_g58454504898751_cont_sun_c4_404_16_alg».proof.Proof.Gen.Pre_finite_inputs
import proofs.«152415_g58454504898751_cont_sun_c4_404_16_alg».proof.Proof.Gen.KernelIdeal.Value
import proofs.«152415_g58454504898751_cont_sun_c4_404_16_alg».proof.Proof.KernelValue
import proofs.«152415_g58454504898751_cont_sun_c4_404_16_alg».proof.Proof.RefStages
import proofs.«152415_g58454504898751_cont_sun_c4_404_16_alg».proof.Proof.RefIsG
import proofs.«152415_g58454504898751_cont_sun_c4_404_16_alg».proof.Proof.Bridge
import proofs.«152415_g58454504898751_cont_sun_c4_404_16_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel runs, and leaves its arguments as they were. -/
theorem frame_k [Cert.Kernel.Facts] [Cert.Pre_finite_inputs.Facts] : Cert.frame_Kernel :=
  fun m ρ _ => Cert.Kernel.Gen.frame m ρ

/-- So does its reading on the extended reals. -/
theorem frame_ki [Cert.KernelIdeal.Facts] [Cert.Pre_finite_inputs.Facts] : Cert.frame_KernelIdeal :=
  fun m ρ _ => Cert.KernelIdeal.Gen.frame m ρ

/-- The reference runs: its run, with the result forgotten. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Stages.run (F := Ideal) m ρ)

/-- From memories agreeing on the arguments, all of them real numbers, the kernel ends at `G` of the arguments and the
    reference at `GR` of them, and `GR = G` on real arrays. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2.1, (hagree c).2.2.1, (hagree c).2.2.2, Cert.ReferenceIdeal.RefValue.ref_eq_GR]
  obtain ⟨hx, ha, hw, hb⟩ := Cert.Finite.real_of_pre _ _ _ _ (hpre c)
  exact Cert.Bridge.GR_eq_G _ _ _ _ hx ha hw (fun j => hb (ix1 j))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
